-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)) →
    ∃ (v0 : (c : Dev Cert.KernelIdeal.nD) → Buf (Elt Ideal) ((c.tc : Thread Cert.KernelIdeal.nD Cert.KernelIdeal.τ).loc Cert.KernelIdeal.main_v73)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v73) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v88) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S2x600000 : Shape := ⟨2, ![2, 600000]⟩
abbrev S50000 : Shape := ⟨1, ![50000]⟩
abbrev S128x256 : Shape := ⟨2, ![128, 256]⟩
abbrev S256 : Shape := ⟨1, ![256]⟩
abbrev S256x128 : Shape := ⟨2, ![256, 128]⟩
abbrev S128 : Shape := ⟨1, ![128]⟩
abbrev S128x64 : Shape := ⟨2, ![128, 64]⟩
abbrev S64 : Shape := ⟨1, ![64]⟩
abbrev S64x2 : Shape := ⟨2, ![64, 2]⟩
abbrev S2 : Shape := ⟨1, ![2]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S128x256 : S_.BroadcastsInDim S128x256 (![] : Fin 0 → Fin S128x256.rank)
  reducesTo_S128x256_S_d0_1 : S128x256.ReducesTo [0, 1] S_
  bcast_S_S256 : S_.BroadcastsInDim S256 (![] : Fin 0 → Fin S256.rank)
  reducesTo_S256_S_d0 : S256.ReducesTo [0] S_
  bcast_S_S256x128 : S_.BroadcastsInDim S256x128 (![] : Fin 0 → Fin S256x128.rank)
  reducesTo_S256x128_S_d0_1 : S256x128.ReducesTo [0, 1] S_
  bcast_S_S128 : S_.BroadcastsInDim S128 (![] : Fin 0 → Fin S128.rank)
  reducesTo_S128_S_d0 : S128.ReducesTo [0] S_
  bcast_S_S128x64 : S_.BroadcastsInDim S128x64 (![] : Fin 0 → Fin S128x64.rank)
  reducesTo_S128x64_S_d0_1 : S128x64.ReducesTo [0, 1] S_
  bcast_S_S64 : S_.BroadcastsInDim S64 (![] : Fin 0 → Fin S64.rank)
  reducesTo_S64_S_d0 : S64.ReducesTo [0] S_
  bcast_S_S64x2 : S_.BroadcastsInDim S64x2 (![] : Fin 0 → Fin S64x2.rank)
  reducesTo_S64x2_S_d0_1 : S64x2.ReducesTo [0, 1] S_
  bcast_S_S2 : S_.BroadcastsInDim S2 (![] : Fin 0 → Fin S2.rank)
  reducesTo_S2_S_d0 : S2.ReducesTo [0] S_

variable [Facts]

def fn_part3 {F : FTy → Type} [FloatOps F] (main_arg13 : FVec F S2 .f32) (main_v48 : IVec S_ 1) (main_v49 : FVec F S64x2 .f32) (main_v50 : FVec F S64x2 .f32) : IVec S_ 1 :=
  let main_v51 : IVec S64x2 1 := cmpf .olt main_v49 main_v50
  let main_c_19 : IVec S_ 1 := constantI S_ 1 1#1
  let main_v52 : IVec S_ 1 := (fun x v => Host.reduce IntOp.andi x v reducesTo_S64x2_S_d0_1 h_S_) main_v51 main_c_19
  let main_v53 : IVec S_ 1 := andi main_v48 main_v52
  let main_v54 : FVec F S2 .f32 := Host.absf main_arg13
  let main_cst_20 : FVec F S_ .f32 := constant S_ .f32 0x7F800000#32
  let main_v55 : FVec F S2 .f32 := broadcastInDim S2 ![] bcast_S_S2 main_cst_20
  let main_v56 : IVec S2 1 := cmpf .olt main_v54 main_v55
  let main_c_21 : IVec S_ 1 := constantI S_ 1 1#1
  let main_v57 : IVec S_ 1 := (fun x v => Host.reduce IntOp.andi x v reducesTo_S2_S_d0 h_S_) main_v56 main_c_21
  let main_v58 : IVec S_ 1 := andi main_v53 main_v57
  main_v58

def fn_part2 {F : FTy → Type} [FloatOps F] (main_arg9 : FVec F S128x64 .f32) (main_arg10 : FVec F S64 .f32) (main_arg11 : FVec F S128x64 .f32) (main_arg12 : FVec F S64x2 .f32) (main_arg13 : FVec F S2 .f32) (main_v33 : IVec S_ 1) : IVec S_ 1 :=
  let main_v34 : FVec F S128x64 .f32 := Host.absf main_arg9
  let main_cst_12 : FVec F S_ .f32 := constant S_ .f32 0x7F800000#32
  let main_v35 : FVec F S128x64 .f32 := broadcastInDim S128x64 ![] bcast_S_S128x64 main_cst_12
  let main_v36 : IVec S128x64 1 := cmpf .olt main_v34 main_v35
  let main_c_13 : IVec S_ 1 := constantI S_ 1 1#1
  let main_v37 : IVec S_ 1 := (fun x v => Host.reduce IntOp.andi x v reducesTo_S128x64_S_d0_1 h_S_) main_v36 main_c_13
  let main_v38 : IVec S_ 1 := andi main_v33 main_v37
  let main_v39 : FVec F S64 .f32 := Host.absf main_arg10
  let main_cst_14 : FVec F S_ .f32 := constant S_ .f32 0x7F800000#32
  let main_v40 : FVec F S64 .f32 := broadcastInDim S64 ![] bcast_S_S64 main_cst_14
  let main_v41 : IVec S64 1 := cmpf .olt main_v39 main_v40
  let main_c_15 : IVec S_ 1 := constantI S_ 1 1#1
  let main_v42 : IVec S_ 1 := (fun x v => Host.reduce IntOp.andi x v reducesTo_S64_S_d0 h_S_) main_v41 main_c_15
  let main_v43 : IVec S_ 1 := andi main_v38 main_v42
  let main_v44 : FVec F S128x64 .f32 := Host.absf main_arg11
  let main_cst_16 : FVec F S_ .f32 := constant S_ .f32 0x7F800000#32
  let main_v45 : FVec F S128x64 .f32 := broadcastInDim S128x64 ![] bcast_S_S128x64 main_cst_16
  let main_v46 : IVec S128x64 1 := cmpf .olt main_v44 main_v45
  let main_c_17 : IVec S_ 1 := constantI S_ 1 1#1
  let main_v47 : IVec S_ 1 := (fun x v => Host.reduce IntOp.andi x v reducesTo_S128x64_S_d0_1 h_S_) main_v46 main_c_17
  let main_v48 : IVec S_ 1 := andi main_v43 main_v47
  let main_v49 : FVec F S64x2 .f32 := Host.absf main_arg12
  let main_cst_18 : FVec F S_ .f32 := constant S_ .f32 0x7F800000#32
  let main_v50 : FVec F S64x2 .f32 := broadcastInDim S64x2 ![] bcast_S_S64x2 main_cst_18
  fn_part3 (F := F) main_arg13 main_v48 main_v49 main_v50

def fn_part1 {F : FTy → Type} [FloatOps F] (main_arg6 : FVec F S256x128 .f32) (main_arg7 : FVec F S128 .f32) (main_arg8 : FVec F S256x128 .f32) (main_arg9 : FVec F S128x64 .f32) (main_arg10 : FVec F S64 .f32) (main_arg11 : FVec F S128x64 .f32) (main_arg12 : FVec F S64x2 .f32) (main_arg13 : FVec F S2 .f32) (main_v13 : IVec S_ 1) (main_v16 : IVec S128x256 1) : IVec S_ 1 :=
  let main_c_5 : IVec S_ 1 := constantI S_ 1 1#1
  let main_v17 : IVec S_ 1 := (fun x v => Host.reduce IntOp.andi x v reducesTo_S128x256_S_d0_1 h_S_) main_v16 main_c_5
  let main_v18 : IVec S_ 1 := andi main_v13 main_v17
  let main_v19 : FVec F S256x128 .f32 := Host.absf main_arg6
  let main_cst_6 : FVec F S_ .f32 := constant S_ .f32 0x7F800000#32
  let main_v20 : FVec F S256x128 .f32 := broadcastInDim S256x128 ![] bcast_S_S256x128 main_cst_6
  let main_v21 : IVec S256x128 1 := cmpf .olt main_v19 main_v20
  let main_c_7 : IVec S_ 1 := constantI S_ 1 1#1
  let main_v22 : IVec S_ 1 := (fun x v => Host.reduce IntOp.andi x v reducesTo_S256x128_S_d0_1 h_S_) main_v21 main_c_7
  let main_v23 : IVec S_ 1 := andi main_v18 main_v22
  let main_v24 : FVec F S128 .f32 := Host.absf main_arg7
  let main_cst_8 : FVec F S_ .f32 := constant S_ .f32 0x7F800000#32
  let main_v25 : FVec F S128 .f32 := broadcastInDim S128 ![] bcast_S_S128 main_cst_8
  let main_v26 : IVec S128 1 := cmpf .olt main_v24 main_v25
  let main_c_9 : IVec S_ 1 := constantI S_ 1 1#1
  let main_v27 : IVec S_ 1 := (fun x v => Host.reduce IntOp.andi x v reducesTo_S128_S_d0 h_S_) main_v26 main_c_9
  let main_v28 : IVec S_ 1 := andi main_v23 main_v27
  let main_v29 : FVec F S256x128 .f32 := Host.absf main_arg8
  let main_cst_10 : FVec F S_ .f32 := constant S_ .f32 0x7F800000#32
  let main_v30 : FVec F S256x128 .f32 := broadcastInDim S256x128 ![] bcast_S_S256x128 main_cst_10
  let main_v31 : IVec S256x128 1 := cmpf .olt main_v29 main_v30
  let main_c_11 : IVec S_ 1 := constantI S_ 1 1#1
  let main_v32 : IVec S_ 1 := (fun x v => Host.reduce IntOp.andi x v reducesTo_S256x128_S_d0_1 h_S_) main_v31 main_c_11
  let main_v33 : IVec S_ 1 := andi main_v28 main_v32
  fn_part2 (F := F) main_arg9 main_arg10 main_arg11 main_arg12 main_arg13 main_v33

def fn {F : FTy → Type} [FloatOps F] (main_arg0 : FVec F S50000x128 .f32) (main_arg1 : IVec S2x600000 32) (main_arg2 : IVec S50000 32) (main_arg3 : FVec F S128x256 .f32) (main_arg4 : FVec F S256 .f32) (main_arg5 : FVec F S128x256 .f32) (main_arg6 : FVec F S256x128 .f32) (main_arg7 : FVec F S128 .f32) (main_arg8 : FVec F S256x128 .f32) (main_arg9 : FVec F S128x64 .f32) (main_arg10 : FVec F S64 .f32) (main_arg11 : FVec F S128x64 .f32) (main_arg12 : FVec F S64x2 .f32) (main_arg13 : FVec F S2 .f32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S128x256 .f32 := Host.absf main_arg3
  let main_cst_0 : FVec F S_ .f32 := constant S_ .f32 0x7F800000#32
  let main_v5 : FVec F S128x256 .f32 := broadcastInDim S128x256 ![] bcast_S_S128x256 main_cst_0
  let main_v6 : IVec S128x256 1 := cmpf .olt main_v4 main_v5
  let main_c_1 : IVec S_ 1 := constantI S_ 1 1#1
  let main_v7 : IVec S_ 1 := (fun x v => Host.reduce IntOp.andi x v reducesTo_S128x256_S_d0_1 h_S_) main_v6 main_c_1
  let main_v8 : IVec S_ 1 := andi main_v3 main_v7
  let main_v9 : FVec F S256 .f32 := Host.absf main_arg4
  let main_cst_2 : FVec F S_ .f32 := constant S_ .f32 0x7F800000#32
  let main_v10 : FVec F S256 .f32 := broadcastInDim S256 ![] bcast_S_S256 main_cst_2
  let main_v11 : IVec S256 1 := cmpf .olt main_v9 main_v10
  let main_c_3 : IVec S_ 1 := constantI S_ 1 1#1
  let main_v12 : IVec S_ 1 := (fun x v => Host.reduce IntOp.andi x v reducesTo_S256_S_d0 h_S_) main_v11 main_c_3
  let main_v13 : IVec S_ 1 := andi main_v8 main_v12
  let main_v14 : FVec F S128x256 .f32 := Host.absf main_arg5
  let main_cst_4 : FVec F S_ .f32 := constant S_ .f32 0x7F800000#32
  let main_v15 : FVec F S128x256 .f32 := broadcastInDim S128x256 ![] bcast_S_S128x256 main_cst_4
  let main_v16 : IVec S128x256 1 := cmpf .olt main_v14 main_v15
  fn_part1 (F := F) main_arg6 main_arg7 main_arg8 main_arg9 main_arg10 main_arg11 main_arg12 main_arg13 main_v13 main_v16
-- ==== Kernel.lean ====
abbrev S50000x128 : Shape := ⟨2, ![50000, 128]⟩
abbrev S2x600000 : Shape := ⟨2, ![2, 600000]⟩
abbrev S50000 : Shape := ⟨1, ![50000]⟩
abbrev S128x256 : Shape := ⟨2, ![128, 256]⟩
abbrev S256 : Shape := ⟨1, ![256]⟩
abbrev S256x128 : Shape := ⟨2, ![256, 128]⟩
abbrev S128 : Shape := ⟨1, ![128]⟩
abbrev S128x64 : Shape := ⟨2, ![128, 64]⟩
abbrev S64 : Shape := ⟨1, ![64]⟩
abbrev S64x2 : Shape := ⟨2, ![64, 2]⟩
abbrev S2 : Shape := ⟨1, ![2]⟩
abbrev S1x600000 : Shape := ⟨2, ![1, 600000]⟩
abbrev S600000 : Shape := ⟨1, ![600000]⟩
abbrev S_ : Shape := ⟨0, ![]⟩
abbrev S600000x1 : Shape := ⟨2, ![600000, 1]⟩
abbrev S600000x128 : Shape := ⟨2, ![600000, 128]⟩
abbrev S50000x1 : Shape := ⟨2, ![50000, 1]⟩
abbrev S1x256 : Shape := ⟨2, ![1, 256]⟩
abbrev S50000x256 : Shape := ⟨2, ![50000, 256]⟩
abbrev S5000x128 : Shape := ⟨2, ![5000, 128]⟩
abbrev S5000x256 : Shape := ⟨2, ![5000, 256]⟩
abbrev S600000x256 : Shape := ⟨2, ![600000, 256]⟩
abbrev S1x128 : Shape := ⟨2, ![1, 128]⟩
abbrev S1x64 : Shape := ⟨2, ![1, 64]⟩
abbrev S50000x64 : Shape := ⟨2, ![50000, 64]⟩
abbrev S5000x64 : Shape := ⟨2, ![5000, 64]⟩
abbrev S64x64 : Shape := ⟨2, ![64, 64]⟩
abbrev S64x1 : Shape := ⟨2, ![64, 1]⟩
abbrev S1x2 : Shape := ⟨2, ![1, 2]⟩

abbrev nBuf : Space → Nat
  | .hbm => 119
  | .vmem => 27
  | .smem => 0
  | _ => 0

abbrev bufTy : (tb : Table) → Fin (tcTables nBuf tb) → BufTy
  | .hbm, ⟨0, _⟩ => ⟨S50000x128, .f32⟩
  | .hbm, ⟨1, _⟩ => ⟨S2x600000, .i32⟩
  | .hbm, ⟨2, _⟩ => ⟨S50000, .i32⟩
  | .hbm, ⟨3, _⟩ => ⟨S128x256, .f32⟩
  | .hbm, ⟨4, _⟩ => ⟨S256, .f32⟩
  | .hbm, ⟨5, _⟩ => ⟨S128x256, .f32⟩
  | .hbm, ⟨6, _⟩ => ⟨S256x128, .f32⟩
  | .hbm, ⟨7, _⟩ => ⟨S128, .f32⟩
  | .hbm, ⟨8, _⟩ => ⟨S256x128, .f32⟩
  | .hbm, ⟨9, _⟩ => ⟨S128x64, .f32⟩
  | .hbm, ⟨10, _⟩ => ⟨S64, .f32⟩
  | .hbm, ⟨11, _⟩ => ⟨S128x64, .f32⟩
  | .hbm, ⟨12, _⟩ => ⟨S64x2, .f32⟩
  | .hbm, ⟨13, _⟩ => ⟨S2, .f32⟩
  | .hbm, ⟨14, _⟩ => ⟨S1x600000, .i32⟩
  | .hbm, ⟨15, _⟩ => ⟨S600000, .i32⟩
  | .hbm, ⟨16, _⟩ => ⟨S1x600000, .i32⟩
  | .hbm, ⟨17, _⟩ => ⟨S600000, .i32⟩
  | .hbm, ⟨18, _⟩ => ⟨S_, .f32⟩
  | .hbm, ⟨19, _⟩ => ⟨S600000, .f32⟩
  | .hbm, ⟨20, _⟩ => ⟨S_, .f32⟩
  | .hbm, ⟨21, _⟩ => ⟨S50000, .f32⟩
  | .hbm, ⟨22, _⟩ => ⟨S600000x1, .i32⟩
  | .hbm, ⟨23, _⟩ => ⟨S50000, .f32⟩
  | .hbm, ⟨24, _⟩ => ⟨S_, .f32⟩
  | .hbm, ⟨25, _⟩ => ⟨S50000, .f32⟩
  | .hbm, ⟨26, _⟩ => ⟨S50000, .f32⟩
  | .hbm, ⟨27, _⟩ => ⟨S_, .f32⟩
  | .hbm, ⟨28, _⟩ => ⟨S50000, .f32⟩
  | .hbm, ⟨29, _⟩ => ⟨S50000, .f32⟩
  | .hbm, ⟨30, _⟩ => ⟨S_, .i32⟩
  | .hbm, ⟨31, _⟩ => ⟨S600000, .i32⟩
  | .hbm, ⟨32, _⟩ => ⟨S600000, .i1⟩
  | .hbm, ⟨33, _⟩ => ⟨S_, .i32⟩
  | .hbm, ⟨34, _⟩ => ⟨S600000, .i32⟩
  | .hbm, ⟨35, _⟩ => ⟨S600000, .i32⟩
  | .hbm, ⟨36, _⟩ => ⟨S600000, .i32⟩
  | .hbm, ⟨37, _⟩ => ⟨S600000x1, .i32⟩
  | .hbm, ⟨38, _⟩ => ⟨S600000x128, .f32⟩
  | .hbm, ⟨39, _⟩ => ⟨S_, .f32⟩
  | .hbm, ⟨40, _⟩ => ⟨S50000x128, .f32⟩
  | .hbm, ⟨41, _⟩ => ⟨S600000x1, .i32⟩
  | .hbm, ⟨42, _⟩ => ⟨S50000x128, .f32⟩
  | .hbm, ⟨43, _⟩ => ⟨S50000x1, .f32⟩
  | .hbm, ⟨44, _⟩ => ⟨S50000x128, .f32⟩
  | .hbm, ⟨45, _⟩ => ⟨S50000x128, .f32⟩
  | .hbm, ⟨46, _⟩ => ⟨S1x256, .f32⟩
  | .hbm, ⟨47, _⟩ => ⟨S50000x256, .f32⟩
  | .hbm, ⟨48, _⟩ => ⟨S_, .i32⟩
  | .hbm, ⟨49, _⟩ => ⟨S600000, .i32⟩
  | .hbm, ⟨50, _⟩ => ⟨S600000, .i1⟩
  | .hbm, ⟨51, _⟩ => ⟨S_, .i32⟩
  | .hbm, ⟨52, _⟩ => ⟨S600000, .i32⟩
  | .hbm, ⟨53, _⟩ => ⟨S600000, .i32⟩
  | .hbm, ⟨54, _⟩ => ⟨S600000, .i32⟩
  | .hbm, ⟨55, _⟩ => ⟨S600000x1, .i32⟩
  | .hbm, ⟨56, _⟩ => ⟨S600000x256, .f32⟩
  | .hbm, ⟨57, _⟩ => ⟨S_, .f32⟩
  | .hbm, ⟨58, _⟩ => ⟨S50000x256, .f32⟩
  | .hbm, ⟨59, _⟩ => ⟨S600000x1, .i32⟩
  | .hbm, ⟨60, _⟩ => ⟨S50000x256, .f32⟩
  | .hbm, ⟨61, _⟩ => ⟨S50000x1, .f32⟩
  | .hbm, ⟨62, _⟩ => ⟨S50000x256, .f32⟩
  | .hbm, ⟨63, _⟩ => ⟨S50000x256, .f32⟩
  | .hbm, ⟨64, _⟩ => ⟨S1x128, .f32⟩
  | .hbm, ⟨65, _⟩ => ⟨S50000x128, .f32⟩
  | .hbm, ⟨66, _⟩ => ⟨S_, .i32⟩
  | .hbm, ⟨67, _⟩ => ⟨S600000, .i32⟩
  | .hbm, ⟨68, _⟩ => ⟨S600000, .i1⟩
  | .hbm, ⟨69, _⟩ => ⟨S_, .i32⟩
  | .hbm, ⟨70, _⟩ => ⟨S600000, .i32⟩
  | .hbm, ⟨71, _⟩ => ⟨S600000, .i32⟩
  | .hbm, ⟨72, _⟩ => ⟨S600000, .i32⟩
  | .hbm, ⟨73, _⟩ => ⟨S600000x1, .i32⟩
  | .hbm, ⟨74, _⟩ => ⟨S600000x128, .f32⟩
  | .hbm, ⟨75, _⟩ => ⟨S_, .f32⟩
  | .hbm, ⟨76, _⟩ => ⟨S50000x128, .f32⟩
  | .hbm, ⟨77, _⟩ => ⟨S600000x1, .i32⟩
  | .hbm, ⟨78, _⟩ => ⟨S50000x128, .f32⟩
  | .hbm, ⟨79, _⟩ => ⟨S50000x1, .f32⟩
  | .hbm, ⟨80, _⟩ => ⟨S50000x128, .f32⟩
  | .hbm, ⟨81, _⟩ => ⟨S50000x128, .f32⟩
  | .hbm, ⟨82, _⟩ => ⟨S1x64, .f32⟩
  | .hbm, ⟨83, _⟩ => ⟨S50000x64, .f32⟩
  | .hbm, ⟨84, _⟩ => ⟨S_, .f32⟩
  | .hbm, ⟨85, _⟩ => ⟨S64x64, .f32⟩
  | .hbm, ⟨86, _⟩ => ⟨S50000x1, .i32⟩
  | .hbm, ⟨87, _⟩ => ⟨S64x64, .f32⟩
  | .hbm, ⟨88, _⟩ => ⟨S_, .f32⟩
  | .hbm, ⟨89, _⟩ => ⟨S50000, .f32⟩
  | .hbm, ⟨90, _⟩ => ⟨S_, .f32⟩
  | .hbm, ⟨91, _⟩ => ⟨S64, .f32⟩
  | .hbm, ⟨92, _⟩ => ⟨S50000x1, .i32⟩
  | .hbm, ⟨93, _⟩ => ⟨S64, .f32⟩
  | .hbm, ⟨94, _⟩ => ⟨S_, .f32⟩
  | .hbm, ⟨95, _⟩ => ⟨S64, .f32⟩
  | .hbm, ⟨96, _⟩ => ⟨S64, .f32⟩
  | .hbm, ⟨97, _⟩ => ⟨S64x1, .f32⟩
  | .hbm, ⟨98, _⟩ => ⟨S64x64, .f32⟩
  | .hbm, ⟨99, _⟩ => ⟨S64x64, .f32⟩
  | .hbm, ⟨100, _⟩ => ⟨S64x2, .f32⟩
  | .hbm, ⟨101, _⟩ => ⟨S1x2, .f32⟩
  | .hbm, ⟨102, _⟩ => ⟨S64x2, .f32⟩
  | .hbm, ⟨103, _⟩ => ⟨S64x2, .f32⟩
  | .hbm, ⟨104, _⟩ => ⟨S_, .f32⟩
  | .hbm, ⟨105, _⟩ => ⟨S64, .f32⟩
  | .hbm, ⟨106, _⟩ => ⟨S_, .f32⟩
  | .hbm, ⟨107, _⟩ => ⟨S64, .f32⟩
  | .hbm, ⟨108, _⟩ => ⟨S64, .f32⟩
  | .hbm, ⟨109, _⟩ => ⟨S64x1, .f32⟩
  | .hbm, ⟨110, _⟩ => ⟨S64x2, .f32⟩
  | .hbm, ⟨111, _⟩ => ⟨S64x2, .f32⟩
  | .hbm, ⟨112, _⟩ => ⟨S64x2, .f32⟩
  | .hbm, ⟨113, _⟩ => ⟨S_, .f32⟩
  | .hbm, ⟨114, _⟩ => ⟨S64, .f32⟩
  | .hbm, ⟨115, _⟩ => ⟨S64x1, .f32⟩
  | .hbm, ⟨116, _⟩ => ⟨S64x1, .f32⟩
  | .hbm, ⟨117, _⟩ => ⟨S64x2, .f32⟩
  | .hbm, ⟨118, _⟩ => ⟨S64x2, .f32⟩
  | .local _ .vmem, ⟨0, _⟩ => ⟨S5000x128, .f32⟩
  | .local _ .vmem, ⟨1, _⟩ => ⟨S5000x128, .f32⟩
  | .local _ .vmem, ⟨2, _⟩ => ⟨S5000x128, .f32⟩
  | .local _ .vmem, ⟨3, _⟩ => ⟨S5000x128, .f32⟩
  | .local _ .vmem, ⟨4, _⟩ => ⟨S128x256, .f32⟩
  | .local _ .vmem, ⟨5, _⟩ => ⟨S1x256, .f32⟩
  | .local _ .vmem, ⟨6, _⟩ => ⟨S128x256, .f32⟩
  | .local _ .vmem, ⟨7, _⟩ => ⟨S5000x256, .f32⟩
  | .local _ .vmem, ⟨8, _⟩ => ⟨S5000x256, .f32⟩
  | .local _ .vmem, ⟨9, _⟩ => ⟨S5000x256, .f32⟩
  | .local _ .vmem, ⟨10, _⟩ => ⟨S5000x256, .f32⟩
  | .local _ .vmem, ⟨11, _⟩ => ⟨S5000x256, .f32⟩
  | .local _ .vmem, ⟨12, _⟩ => ⟨S5000x256, .f32⟩
  | .local _ .vmem, ⟨13, _⟩ => ⟨S256x128, .f32⟩
  | .local _ .vmem, ⟨14, _⟩ => ⟨S1x128, .f32⟩
  | .local _ .vmem, ⟨15, _⟩ => ⟨S256x128, .f32⟩
  | .local _ .vmem, ⟨16, _⟩ => ⟨S5000x128, .f32⟩
  | .local _ .vmem, ⟨17, _⟩ => ⟨S5000x128, .f32⟩
  | .local _ .vmem, ⟨18, _⟩ => ⟨S5000x128, .f32⟩
  | .local _ .vmem, ⟨19, _⟩ => ⟨S5000x128, .f32⟩
  | .local _ .vmem, ⟨20, _⟩ => ⟨S5000x128, .f32⟩
  | .local _ .vmem, ⟨21, _⟩ => ⟨S5000x128, .f32⟩
  | .local _ .vmem, ⟨22, _⟩ => ⟨S128x64, .f32⟩
  | .local _ .vmem, ⟨23, _⟩ => ⟨S1x64, .f32⟩
  | .local _ .vmem, ⟨24, _⟩ => ⟨S128x64, .f32⟩
  | .local _ .vmem, ⟨25, _⟩ => ⟨S5000x64, .f32⟩
  | .local _ .vmem, ⟨26, _⟩ => ⟨S5000x64, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | _, _ => false

abbrev semScoped : Fin 0 → Bool
  | ⟨_, h⟩ => absurd h (Nat.not_lt_zero _)

abbrev dmaSemScoped : Fin 27 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | _ => false

abbrev sig : RefSig :=
  ofTc nBuf bufTy 0 27 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0 : Ref sig .tc := ⟨.hbm, 14, rfl⟩
abbrev main_v1 : Ref sig .tc := ⟨.hbm, 15, rfl⟩
abbrev main_v2 : Ref sig .tc := ⟨.hbm, 16, rfl⟩
abbrev main_v3 : Ref sig .tc := ⟨.hbm, 17, rfl⟩
abbrev main_cst : Ref sig .tc := ⟨.hbm, 18, rfl⟩
abbrev main_v4 : Ref sig .tc := ⟨.hbm, 19, rfl⟩
abbrev main_cst_0 : Ref sig .tc := ⟨.hbm, 20, rfl⟩
abbrev main_v5 : Ref sig .tc := ⟨.hbm, 21, rfl⟩
abbrev main_v6 : Ref sig .tc := ⟨.hbm, 22, rfl⟩
abbrev main_v7 : Ref sig .tc := ⟨.hbm, 23, rfl⟩
abbrev main_cst_1 : Ref sig .tc := ⟨.hbm, 24, rfl⟩
abbrev main_v8 : Ref sig .tc := ⟨.hbm, 25, rfl⟩
abbrev main_v9 : Ref sig .tc := ⟨.hbm, 26, rfl⟩
abbrev main_cst_2 : Ref sig .tc := ⟨.hbm, 27, rfl⟩
abbrev main_v10 : Ref sig .tc := ⟨.hbm, 28, rfl⟩
abbrev main_v11 : Ref sig .tc := ⟨.hbm, 29, rfl⟩
abbrev main_c : Ref sig .tc := ⟨.hbm, 30, rfl⟩
abbrev main_v12 : Ref sig .tc := ⟨.hbm, 31, rfl⟩
abbrev main_v13 : Ref sig .tc := ⟨.hbm, 32, rfl⟩
abbrev main_c_3 : Ref sig .tc := ⟨.hbm, 33, rfl⟩
abbrev main_v14 : Ref sig .tc := ⟨.hbm, 34, rfl⟩
abbrev main_v15 : Ref sig .tc := ⟨.hbm, 35, rfl⟩
abbrev main_v16 : Ref sig .tc := ⟨.hbm, 36, rfl⟩
abbrev main_v17 : Ref sig .tc := ⟨.hbm, 37, rfl⟩
abbrev main_v18 : Ref sig .tc := ⟨.hbm, 38, rfl⟩
abbrev main_cst_4 : Ref sig .tc := ⟨.hbm, 39, rfl⟩
abbrev main_v19 : Ref sig .tc := ⟨.hbm, 40, rfl⟩
abbrev main_v20 : Ref sig .tc := ⟨.hbm, 41, rfl⟩
abbrev main_v21 : Ref sig .tc := ⟨.hbm, 42, rfl⟩
abbrev main_v22 : Ref sig .tc := ⟨.hbm, 43, rfl⟩
abbrev main_v23 : Ref sig .tc := ⟨.hbm, 44, rfl⟩
abbrev main_v24 : Ref sig .tc := ⟨.hbm, 45, rfl⟩
abbrev main_v25 : Ref sig .tc := ⟨.hbm, 46, rfl⟩
abbrev main_v26 : Ref sig .tc := ⟨.hbm, 47, rfl⟩
abbrev main_c_5 : Ref sig .tc := ⟨.hbm, 48, rfl⟩
abbrev main_v27 : Ref sig .tc := ⟨.hbm, 49, rfl⟩
abbrev main_v28 : Ref sig .tc := ⟨.hbm, 50, rfl⟩
abbrev main_c_6 : Ref sig .tc := ⟨.hbm, 51, rfl⟩
abbrev main_v29 : Ref sig .tc := ⟨.hbm, 52, rfl⟩
abbrev main_v30 : Ref sig .tc := ⟨.hbm, 53, rfl⟩
abbrev main_v31 : Ref sig .tc := ⟨.hbm, 54, rfl⟩
abbrev main_v32 : Ref sig .tc := ⟨.hbm, 55, rfl⟩
abbrev main_v33 : Ref sig .tc := ⟨.hbm, 56, rfl⟩
abbrev main_cst_7 : Ref sig .tc := ⟨.hbm, 57, rfl⟩
abbrev main_v34 : Ref sig .tc := ⟨.hbm, 58, rfl⟩
abbrev main_v35 : Ref sig .tc := ⟨.hbm, 59, rfl⟩
abbrev main_v36 : Ref sig .tc := ⟨.hbm, 60, rfl⟩
abbrev main_v37 : Ref sig .tc := ⟨.hbm, 61, rfl⟩
abbrev main_v38 : Ref sig .tc := ⟨.hbm, 62, rfl⟩
abbrev main_v39 : Ref sig .tc := ⟨.hbm, 63, rfl⟩
abbrev main_v40 : Ref sig .tc := ⟨.hbm, 64, rfl⟩
abbrev main_v41 : Ref sig .tc := ⟨.hbm, 65, rfl⟩
abbrev main_c_8 : Ref sig .tc := ⟨.hbm, 66, rfl⟩
abbrev main_v42 : Ref sig .tc := ⟨.hbm, 67, rfl⟩
abbrev main_v43 : Ref sig .tc := ⟨.hbm, 68, rfl⟩
abbrev main_c_9 : Ref sig .tc := ⟨.hbm, 69, rfl⟩
abbrev main_v44 : Ref sig .tc := ⟨.hbm, 70, rfl⟩
abbrev main_v45 : Ref sig .tc := ⟨.hbm, 71, rfl⟩
abbrev main_v46 : Ref sig .tc := ⟨.hbm, 72, rfl⟩
abbrev main_v47 : Ref sig .tc := ⟨.hbm, 73, rfl⟩
abbrev main_v48 : Ref sig .tc := ⟨.hbm, 74, rfl⟩
abbrev main_cst_10 : Ref sig .tc := ⟨.hbm, 75, rfl⟩
abbrev main_v49 : Ref sig .tc := ⟨.hbm, 76, rfl⟩
abbrev main_v50 : Ref sig .tc := ⟨.hbm, 77, rfl⟩
abbrev main_v51 : Ref sig .tc := ⟨.hbm, 78, rfl⟩
abbrev main_v52 : Ref sig .tc := ⟨.hbm, 79, rfl⟩
abbrev main_v53 : Ref sig .tc := ⟨.hbm, 80, rfl⟩
abbrev main_v54 : Ref sig .tc := ⟨.hbm, 81, rfl⟩
abbrev main_v55 : Ref sig .tc := ⟨.hbm, 82, rfl⟩
abbrev main_v56 : Ref sig .tc := ⟨.hbm, 83, rfl⟩
abbrev main_cst_11 : Ref sig .tc := ⟨.hbm, 84, rfl⟩
abbrev main_v57 : Ref sig .tc := ⟨.hbm, 85, rfl⟩
abbrev main_v58 : Ref sig .tc := ⟨.hbm, 86, rfl⟩
abbrev main_v59 : Ref sig .tc := ⟨.hbm, 87, rfl⟩
abbrev main_cst_12 : Ref sig .tc := ⟨.hbm, 88, rfl⟩
abbrev main_v60 : Ref sig .tc := ⟨.hbm, 89, rfl⟩
abbrev main_cst_13 : Ref sig .tc := ⟨.hbm, 90, rfl⟩
abbrev main_v61 : Ref sig .tc := ⟨.hbm, 91, rfl⟩
abbrev main_v62 : Ref sig .tc := ⟨.hbm, 92, rfl⟩
abbrev main_v63 : Ref sig .tc := ⟨.hbm, 93, rfl⟩
abbrev main_cst_14 : Ref sig .tc := ⟨.hbm, 94, rfl⟩
abbrev main_v64 : Ref sig .tc := ⟨.hbm, 95, rfl⟩
abbrev main_v65 : Ref sig .tc := ⟨.hbm, 96, rfl⟩
abbrev main_v66 : Ref sig .tc := ⟨.hbm, 97, rfl⟩
abbrev main_v67 : Ref sig .tc := ⟨.hbm, 98, rfl⟩
abbrev main_v68 : Ref sig .tc := ⟨.hbm, 99, rfl⟩
abbrev main_v69 : Ref sig .tc := ⟨.hbm, 100, rfl⟩
abbrev main_v70 : Ref sig .tc := ⟨.hbm, 101, rfl⟩
abbrev main_v71 : Ref sig .tc := ⟨.hbm, 102, rfl⟩
abbrev main_v72 : Ref sig .tc := ⟨.hbm, 103, rfl⟩
abbrev main_call0_cst : Ref sig .tc := ⟨.hbm, 104, rfl⟩
abbrev main_call0_v0 : Ref sig .tc := ⟨.hbm, 105, rfl⟩
abbrev main_call0_cst_0 : Ref sig .tc := ⟨.hbm, 106, rfl⟩
abbrev main_call0_v1 : Ref sig .tc := ⟨.hbm, 107, rfl⟩
abbrev main_call0_v2 : Ref sig .tc := ⟨.hbm, 108, rfl⟩
abbrev main_call0_v3 : Ref sig .tc := ⟨.hbm, 109, rfl⟩
abbrev main_call0_v4 : Ref sig .tc := ⟨.hbm, 110, rfl⟩
abbrev main_call0_v5 : Ref sig .tc := ⟨.hbm, 111, rfl⟩
abbrev main_call0_v6 : Ref sig .tc := ⟨.hbm, 112, rfl⟩
abbrev main_call0_cst_1 : Ref sig .tc := ⟨.hbm, 113, rfl⟩
abbrev main_call0_v7 : Ref sig .tc := ⟨.hbm, 114, rfl⟩
abbrev main_call0_v8 : Ref sig .tc := ⟨.hbm, 115, rfl⟩
abbrev main_call0_v9 : Ref sig .tc := ⟨.hbm, 116, rfl⟩
abbrev main_call0_v10 : Ref sig .tc := ⟨.hbm, 117, rfl⟩
abbrev main_v73 : Ref sig .tc := ⟨.hbm, 118, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc1_stg0_0 : Ref sig .tc := ⟨.vmem, 9, rfl⟩
abbrev cc1_stg0_1 : Ref sig .tc := ⟨.vmem, 10, rfl⟩
abbrev cc1_stg1_0 : Ref sig .tc := ⟨.vmem, 11, rfl⟩
abbrev cc1_stg1_1 : Ref sig .tc := ⟨.vmem, 12, rfl⟩
abbrev cc1_stg2_0 : Ref sig .tc := ⟨.vmem, 13, rfl⟩
abbrev cc1_stg3_0 : Ref sig .tc := ⟨.vmem, 14, rfl⟩
abbrev cc1_stg4_0 : Ref sig .tc := ⟨.vmem, 15, rfl⟩
abbrev cc1_stg5_0 : Ref sig .tc := ⟨.vmem, 16, rfl⟩
abbrev cc1_stg5_1 : Ref sig .tc := ⟨.vmem, 17, rfl⟩
abbrev cc2_stg0_0 : Ref sig .tc := ⟨.vmem, 18, rfl⟩
abbrev cc2_stg0_1 : Ref sig .tc := ⟨.vmem, 19, rfl⟩
abbrev cc2_stg1_0 : Ref sig .tc := ⟨.vmem, 20, rfl⟩
abbrev cc2_stg1_1 : Ref sig .tc := ⟨.vmem, 21, rfl⟩
abbrev cc2_stg2_0 : Ref sig .tc := ⟨.vmem, 22, rfl⟩
abbrev cc2_stg3_0 : Ref sig .tc := ⟨.vmem, 23, rfl⟩
abbrev cc2_stg4_0 : Ref sig .tc := ⟨.vmem, 24, rfl⟩
abbrev cc2_stg5_0 : Ref sig .tc := ⟨.vmem, 25, rfl⟩
abbrev cc2_stg5_1 : Ref sig .tc := ⟨.vmem, 26, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8
abbrev cc1_sem0_0 : DmaSem sig := 9
abbrev cc1_sem0_1 : DmaSem sig := 10
abbrev cc1_sem1_0 : DmaSem sig := 11
abbrev cc1_sem1_1 : DmaSem sig := 12
abbrev cc1_sem2_0 : DmaSem sig := 13
abbrev cc1_sem3_0 : DmaSem sig := 14
abbrev cc1_sem4_0 : DmaSem sig := 15
abbrev cc1_sem5_0 : DmaSem sig := 16
abbrev cc1_sem5_1 : DmaSem sig := 17
abbrev cc2_sem0_0 : DmaSem sig := 18
abbrev cc2_sem0_1 : DmaSem sig := 19
abbrev cc2_sem1_0 : DmaSem sig := 20
abbrev cc2_sem1_1 : DmaSem sig := 21
abbrev cc2_sem2_0 : DmaSem sig := 22
abbrev cc2_sem3_0 : DmaSem sig := 23
abbrev cc2_sem4_0 : DmaSem sig := 24
abbrev cc2_sem5_0 : DmaSem sig := 25
abbrev cc2_sem5_1 : DmaSem sig := 26

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S5000x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S128x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S128x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S5000x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x256 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x256 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S256x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S256x128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S5000x128 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev grid2 : Pipeline.Grid := ⟨1, ![10], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S5000x128 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S128x64 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S1x64 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S128x64 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 2 → Memref sig .tc .vmem S5000x64 .f32 := fun | 0 => Memref.whole cc2_stg5_0 | 1 => Memref.whole cc2_stg5_1 | ⟨_ + 2, h⟩ => absurd h (Nat.not_lt.2 (Nat.le_add_left _ _))
abbrev sem2_5 : Fin 2 → DmaSem sig := fun | 0 => cc2_sem5_0 | 1 => cc2_sem5_1 | ⟨_ + 2, h⟩ => absurd h (Nat.not_lt.2 (Nat.le_add_left _ _))
abbrev reads2_5 : Fin grid2.rank → Bool := ![true]

class Facts₀ : Prop where
  slices_S2x600000_S1x600000_0_0 : S2x600000.Slices ![0, 0] S1x600000
  shapeCasts_S1x600000_S600000 : S1x600000.ShapeCasts S600000
  slices_S2x600000_S1x600000_1_0 : S2x600000.Slices ![1, 0] S1x600000
  bcast_S_S600000 : S_.BroadcastsInDim S600000 (![] : Fin 0 → Fin S600000.rank)
  bcast_S_S50000 : S_.BroadcastsInDim S50000 (![] : Fin 0 → Fin S50000.rank)
  bcast_S600000_S600000x1_0 : S600000.BroadcastsInDim S600000x1 (![0] : Fin 1 → Fin S600000x1.rank)
  bcast_S_S50000x128 : S_.BroadcastsInDim S50000x128 (![] : Fin 0 → Fin S50000x128.rank)
  bcast_S50000_S50000x1_0 : S50000.BroadcastsInDim S50000x1 (![0] : Fin 1 → Fin S50000x1.rank)
  bcast_S50000x1_S50000x128_0_1 : S50000x1.BroadcastsInDim S50000x128 (![0, 1] : Fin 2 → Fin S50000x128.rank)
  shapeCasts_S256_S1x256 : S256.ShapeCasts S1x256
  inb_S5000x128_S5000x128_0_0 : ∀ a, (![0, 0] : Fin 2 → Nat) a + S5000x128.size a ≤ S5000x128.size a
  h_S5000x128 : 0 < S5000x128.numel
  shapeCasts_S5000x128_S5000x128 : S5000x128.ShapeCasts S5000x128
  bitsLt_bf16_f32 : FTy.bits .bf16 < FTy.bits .f32
  inb_S128x256_S128x256_0_0 : ∀ a, (![0, 0] : Fin 2 → Nat) a + S128x256.size a ≤ S128x256.size a
  h_S128x256 : 0 < S128x256.numel
  inb_S1x256_S1x256_0_0 : ∀ a, (![0, 0] : Fin 2 → Nat) a + S1x256.size a ≤ S1x256.size a
  h_S1x256 : 0 < S1x256.numel
  shapeCasts_S1x256_S1x256 : S1x256.ShapeCasts S1x256
  broadcasts_S1x256_S5000x256 : S1x256.Broadcasts S5000x256
  inb_S5000x256_S5000x256_0_0 : ∀ a, (![0, 0] : Fin 2 → Nat) a + S5000x256.size a ≤ S5000x256.size a
  h_S5000x256 : 0 < S5000x256.numel
  bcast_S_S50000x256 : S_.BroadcastsInDim S50000x256 (![] : Fin 0 → Fin S50000x256.rank)
  bcast_S50000x1_S50000x256_0_1 : S50000x1.BroadcastsInDim S50000x256 (![0, 1] : Fin 2 → Fin S50000x256.rank)
  shapeCasts_S128_S1x128 : S128.ShapeCasts S1x128
  shapeCasts_S5000x256_S5000x256 : S5000x256.ShapeCasts S5000x256
  inb_S256x128_S256x128_0_0 : ∀ a, (![0, 0] : Fin 2 → Nat) a + S256x128.size a ≤ S256x128.size a
  h_S256x128 : 0 < S256x128.numel
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S5000x128 : S1x128.Broadcasts S5000x128
  shapeCasts_S64_S1x64 : S64.ShapeCasts S1x64
  inb_S128x64_S128x64_0_0 : ∀ a, (![0, 0] : Fin 2 → Nat) a + S128x64.size a ≤ S128x64.size a
  h_S128x64 : 0 < S128x64.numel
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S5000x64 : S1x64.Broadcasts S5000x64
  inb_S5000x64_S5000x64_0_0 : ∀ a, (![0, 0] : Fin 2 → Nat) a + S5000x64.size a ≤ S5000x64.size a
  h_S5000x64 : 0 < S5000x64.numel
  bcast_S_S64x64 : S_.BroadcastsInDim S64x64 (![] : Fin 0 → Fin S64x64.rank)
  bcast_S_S64 : S_.BroadcastsInDim S64 (![] : Fin 0 → Fin S64.rank)
  bcast_S64_S64x1_0 : S64.BroadcastsInDim S64x1 (![0] : Fin 1 → Fin S64x1.rank)
  bcast_S64x1_S64x64_0_1 : S64x1.BroadcastsInDim S64x64 (![0, 1] : Fin 2 → Fin S64x64.rank)
  bcast_S2_S1x2_1 : S2.BroadcastsInDim S1x2 (![1] : Fin 1 → Fin S1x2.rank)
  bcast_S1x2_S64x2_0_1 : S1x2.BroadcastsInDim S64x2 (![0, 1] : Fin 2 → Fin S64x2.rank)
  reducesTo_S64x2_S64_d1 : S64x2.ReducesTo [1] S64
  h_S_ : 0 < S_.numel
  bcast_S64x1_S64x2_0_1 : S64x1.BroadcastsInDim S64x2 (![0, 1] : Fin 2 → Fin S64x2.rank)
  scatter_S50000_S600000x1_S600000_n_0_0_1_wf : ScatterDims.WF S50000 S600000x1 S600000 [] [0] [0] 1
  gather_S50000x128_S600000x1_S600000x128_1_0_n_n_0_1_1128_wf : GatherDims.WF S50000x128 S600000x1 S600000x128 [1] [0] [] [0] [] 1 ![1, 128]
  scatter_S50000x128_S600000x1_S600000x128_1_0_0_1_wf : ScatterDims.WF S50000x128 S600000x1 S600000x128 [1] [0] [0] 1
  dot_S5000x128_S128x256_S5000x256_1_0_0_1_n_n_wf : DotDims.WF S5000x128 S128x256 S5000x256 [1] [0] [0] [1] [] []
  gather_S50000x256_S600000x1_S600000x256_1_0_n_n_0_1_1256_wf : GatherDims.WF S50000x256 S600000x1 S600000x256 [1] [0] [] [0] [] 1 ![1, 256]
  scatter_S50000x256_S600000x1_S600000x256_1_0_0_1_wf : ScatterDims.WF S50000x256 S600000x1 S600000x256 [1] [0] [0] 1
  dot_S5000x256_S256x128_S5000x128_1_0_0_1_n_n_wf : DotDims.WF S5000x256 S256x128 S5000x128 [1] [0] [0] [1] [] []
  dot_S5000x128_S128x64_S5000x64_1_0_0_1_n_n_wf : DotDims.WF S5000x128 S128x64 S5000x64 [1] [0] [0] [1] [] []
  scatter_S64x64_S50000x1_S50000x64_1_0_0_1_wf : ScatterDims.WF S64x64 S50000x1 S50000x64 [1] [0] [0] 1
  scatter_S64_S50000x1_S50000_n_0_0_1_wf : ScatterDims.WF S64 S50000x1 S50000 [] [0] [0] 1
  dot_S64x64_S64x2_S64x2_1_0_0_1_n_n_wf : DotDims.WF S64x64 S64x2 S64x2 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S50000x128.size a
  hwx0_0 : ∀ i : grid0.Coords, EltTy.bits .f32 = 32 ∨ (Rect.block (s := S50000x128) S5000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S5000x128.size a ≤ S50000x128.size a
  hwx0_1 : ∀ i : grid0.Coords, EltTy.bits .f32 = 32 ∨ (Rect.block (s := S50000x128) S5000x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x256.size a ≤ S128x256.size a
  hwx0_2 : ∀ i : grid0.Coords, EltTy.bits .f32 = 32 ∨ (Rect.block (s := S128x256) S128x256.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x256.size a ≤ S1x256.size a
  hwx0_3 : ∀ i : grid0.Coords, EltTy.bits .f32 = 32 ∨ (Rect.block (s := S1x256) S1x256.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S128x256.size a ≤ S128x256.size a
  hwx0_4 : ∀ i : grid0.Coords, EltTy.bits .f32 = 32 ∨ (Rect.block (s := S128x256) S128x256.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S5000x256.size a ≤ S50000x256.size a
  hwx0_5 : ∀ i : grid0.Coords, EltTy.bits .f32 = 32 ∨ (Rect.block (s := S50000x256) S5000x256.size (cc0_transform_5 i) (hinb0_5 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x256.size a ≤ S50000x256.size a
  hwx1_0 : ∀ i : grid1.Coords, EltTy.bits .f32 = 32 ∨ (Rect.block (s := S50000x256) S5000x256.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x256.size a ≤ S50000x256.size a
  hwx1_1 : ∀ i : grid1.Coords, EltTy.bits .f32 = 32 ∨ (Rect.block (s := S50000x256) S5000x256.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S256x128.size a ≤ S256x128.size a
  hwx1_2 : ∀ i : grid1.Coords, EltTy.bits .f32 = 32 ∨ (Rect.block (s := S256x128) S256x128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x128.size a ≤ S1x128.size a
  hwx1_3 : ∀ i : grid1.Coords, EltTy.bits .f32 = 32 ∨ (Rect.block (s := S1x128) S1x128.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S256x128.size a ≤ S256x128.size a
  hwx1_4 : ∀ i : grid1.Coords, EltTy.bits .f32 = 32 ∨ (Rect.block (s := S256x128) S256x128.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S5000x128.size a ≤ S50000x128.size a
  hwx1_5 : ∀ i : grid1.Coords, EltTy.bits .f32 = 32 ∨ (Rect.block (s := S50000x128) S5000x128.size (cc1_transform_5 i) (hinb1_5 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x128.size a ≤ S50000x128.size a
  hwx2_0 : ∀ i : grid2.Coords, EltTy.bits .f32 = 32 ∨ (Rect.block (s := S50000x128) S5000x128.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S5000x128.size a ≤ S50000x128.size a
  hwx2_1 : ∀ i : grid2.Coords, EltTy.bits .f32 = 32 ∨ (Rect.block (s := S50000x128) S5000x128.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S128x64.size a ≤ S128x64.size a
  hwx2_2 : ∀ i : grid2.Coords, EltTy.bits .f32 = 32 ∨ (Rect.block (s := S128x64) S128x64.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S1x64.size a ≤ S1x64.size a
  hwx2_3 : ∀ i : grid2.Coords, EltTy.bits .f32 = 32 ∨ (Rect.block (s := S1x64) S1x64.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S128x64.size a ≤ S128x64.size a
  hwx2_4 : ∀ i : grid2.Coords, EltTy.bits .f32 = 32 ∨ (Rect.block (s := S128x64) S128x64.size (cc2_transform_4 i) (hinb2_4 i)).WholeWords (EltTy.packing .f32)
  hstage2_5 : ∀ j, (stage2_5 j).IsWhole
  nbuf2_5 : grid2.bufCount reads2_5 false = 2
  hreads2_5 : ∀ i i' : grid2.Coords, (∀ a, reads2_5 a = true → i a = i' a) → cc2_transform_5 i = cc2_transform_5 i'
  hinb2_5 : ∀ (i : grid2.Coords) a, (cc2_transform_5 i a + 1) * S5000x64.size a ≤ S50000x64.size a
  hwx2_5 : ∀ i : grid2.Coords, EltTy.bits .f32 = 32 ∨ (Rect.block (s := S50000x64) S5000x64.size (cc2_transform_5 i) (hinb2_5 i)).WholeWords (EltTy.packing .f32)

variable [Facts₀]

def scatter_S50000_S600000x1_S600000_n_0_0_1 : ScatterDims S50000 S600000x1 S600000 where
  updateWindowDims := []
  insertedWindowDims := [0]
  scatterDimsToOperandDims := [0]
  indexVectorDim := 1
  wf := scatter_S50000_S600000x1_S600000_n_0_0_1_wf
def gather_S50000x128_S600000x1_S600000x128_1_0_n_n_0_1_1128 : GatherDims S50000x128 S600000x1 S600000x128 where
  offsetDims := [1]
  collapsedSliceDims := [0]
  operandBatchingDims := []
  startIndicesBatchingDims := []
  startIndexMap := [0]
  indexVectorDim := 1
  sliceSizes := ![1, 128]
  wf := gather_S50000x128_S600000x1_S600000x128_1_0_n_n_0_1_1128_wf
def scatter_S50000x128_S600000x1_S600000x128_1_0_0_1 : ScatterDims S50000x128 S600000x1 S600000x128 where
  updateWindowDims := [1]
  insertedWindowDims := [0]
  scatterDimsToOperandDims := [0]
  indexVectorDim := 1
  wf := scatter_S50000x128_S600000x1_S600000x128_1_0_0_1_wf
def dot_S5000x128_S128x256_S5000x256_1_0_0_1_n_n : DotDims S5000x128 S128x256 S5000x256 where
  lhsContracting := [1]
  rhsContracting := [0]
  lhsNonContracting := [0]
  rhsNonContracting := [1]
  lhsBatch := []
  rhsBatch := []
  wf := dot_S5000x128_S128x256_S5000x256_1_0_0_1_n_n_wf
def gather_S50000x256_S600000x1_S600000x256_1_0_n_n_0_1_1256 : GatherDims S50000x256 S600000x1 S600000x256 where
  offsetDims := [1]
  collapsedSliceDims := [0]
  operandBatchingDims := []
  startIndicesBatchingDims := []
  startIndexMap := [0]
  indexVectorDim := 1
  sliceSizes := ![1, 256]
  wf := gather_S50000x256_S600000x1_S600000x256_1_0_n_n_0_1_1256_wf
def scatter_S50000x256_S600000x1_S600000x256_1_0_0_1 : ScatterDims S50000x256 S600000x1 S600000x256 where
  updateWindowDims := [1]
  insertedWindowDims := [0]
  scatterDimsToOperandDims := [0]
  indexVectorDim := 1
  wf := scatter_S50000x256_S600000x1_S600000x256_1_0_0_1_wf
def dot_S5000x256_S256x128_S5000x128_1_0_0_1_n_n : DotDims S5000x256 S256x128 S5000x128 where
  lhsContracting := [1]
  rhsContracting := [0]
  lhsNonContracting := [0]
  rhsNonContracting := [1]
  lhsBatch := []
  rhsBatch := []
  wf := dot_S5000x256_S256x128_S5000x128_1_0_0_1_n_n_wf
def dot_S5000x128_S128x64_S5000x64_1_0_0_1_n_n : DotDims S5000x128 S128x64 S5000x64 where
  lhsContracting := [1]
  rhsContracting := [0]
  lhsNonContracting := [0]
  rhsNonContracting := [1]
  lhsBatch := []
  rhsBatch := []
  wf := dot_S5000x128_S128x64_S5000x64_1_0_0_1_n_n_wf
def scatter_S64x64_S50000x1_S50000x64_1_0_0_1 : ScatterDims S64x64 S50000x1 S50000x64 where
  updateWindowDims := [1]
  insertedWindowDims := [0]
  scatterDimsToOperandDims := [0]
  indexVectorDim := 1
  wf := scatter_S64x64_S50000x1_S50000x64_1_0_0_1_wf
def scatter_S64_S50000x1_S50000_n_0_0_1 : ScatterDims S64 S50000x1 S50000 where
  updateWindowDims := []
  insertedWindowDims := [0]
  scatterDimsToOperandDims := [0]
  indexVectorDim := 1
  wf := scatter_S64_S50000x1_S50000_n_0_0_1_wf
def dot_S64x64_S64x2_S64x2_1_0_0_1_n_n : DotDims S64x64 S64x2 S64x2 where
  lhsContracting := [1]
  rhsContracting := [0]
  lhsNonContracting := [0]
  rhsNonContracting := [1]
  lhsBatch := []
  rhsBatch := []
  wf := dot_S64x64_S64x2_S64x2_1_0_0_1_n_n_wf

abbrev win0_0 : Pipeline.Window sig grid0 :=
  Pipeline.Window.ofSpec (Memref.whole main_v24) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg0) S5000x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg3) S128x256.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v25) S1x256.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg5) S128x256.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v26) S5000x256.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev win1_0 : Pipeline.Window sig grid1 :=
  Pipeline.Window.ofSpec (Memref.whole main_v39) S5000x256.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v26) S5000x256.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_arg6) S256x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v40) S1x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_arg8) S256x128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v41) S5000x128.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

abbrev win2_0 : Pipeline.Window sig grid2 :=
  Pipeline.Window.ofSpec (Memref.whole main_v54) S5000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v41) S5000x128.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_arg9) S128x64.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v55) S1x64.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_arg11) S128x64.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v56) S5000x64.size cc2_transform_5 reads2_5 true false 2 stage2_5 sem2_5
    hrank2 hreads2_5 hinb2_5 nbuf2_5 (Memref.isWhole_whole _) hwx2_5 hstage2_5

abbrev win2 : Fin 6 → Pipeline.Window sig grid2 := fun | 0 => win2_0 | 1 => win2_1 | 2 => win2_2 | 3 => win2_3 | 4 => win2_4 | 5 => win2_5 | ⟨_ + 6, h⟩ => absurd h (Nat.not_lt.2 (Nat.le_add_left _ _))
abbrev spec2 : Fin 6 → Pipeline.WinSpec sig grid2.rank := fun w => (win2 w).toWinSpec

class Facts : Prop extends Facts₀ where

variable [Facts]
-- ==== ReferenceIdeal.lean ====
abbrev S50000x128 : Shape := ⟨2, ![50000, 128]⟩
abbrev S2x600000 : Shape := ⟨2, ![2, 600000]⟩
abbrev S50000 : Shape := ⟨1, ![50000]⟩
abbrev S128x256 : Shape := ⟨2, ![128, 256]⟩
abbrev S256 : Shape := ⟨1, ![256]⟩
abbrev S256x128 : Shape := ⟨2, ![256, 128]⟩
abbrev S128 : Shape := ⟨1, ![128]⟩
abbrev S128x64 : Shape := ⟨2, ![128, 64]⟩
abbrev S64 : Shape := ⟨1, ![64]⟩
abbrev S64x2 : Shape := ⟨2, ![64, 2]⟩
abbrev S2 : Shape := ⟨1, ![2]⟩
abbrev S1x600000 : Shape := ⟨2, ![1, 600000]⟩
abbrev S600000 : Shape := ⟨1, ![600000]⟩
abbrev S_ : Shape := ⟨0, ![]⟩
abbrev S600000x1 : Shape := ⟨2, ![600000, 1]⟩
abbrev S600000x128 : Shape := ⟨2, ![600000, 128]⟩
abbrev S50000x1 : Shape := ⟨2, ![50000, 1]⟩
abbrev S50000x256 : Shape := ⟨2, ![50000, 256]⟩
abbrev S1x256 : Shape := ⟨2, ![1, 256]⟩
abbrev S600000x256 : Shape := ⟨2, ![600000, 256]⟩
abbrev S1x128 : Shape := ⟨2, ![1, 128]⟩
abbrev S50000x64 : Shape := ⟨2, ![50000, 64]⟩
abbrev S1x64 : Shape := ⟨2, ![1, 64]⟩
abbrev S64x64 : Shape := ⟨2, ![64, 64]⟩
abbrev S64x1 : Shape := ⟨2, ![64, 1]⟩
abbrev S1x2 : Shape := ⟨2, ![1, 2]⟩

abbrev nBuf : Space → Nat
  | .hbm => 140
  | .vmem => 0
  | .smem => 0
  | _ => 0

abbrev hbmTy0_0 (i : Nat) : BufTy := match i % 128 with
  | 0 => ⟨S50000x128, .f32⟩
  | 1 => ⟨S2x600000, .i32⟩
  | 2 => ⟨S50000, .i32⟩
  | 3 => ⟨S128x256, .f32⟩
  | 4 => ⟨S256, .f32⟩
  | 5 => ⟨S128x256, .f32⟩
  | 6 => ⟨S256x128, .f32⟩
  | 7 => ⟨S128, .f32⟩
  | 8 => ⟨S256x128, .f32⟩
  | 9 => ⟨S128x64, .f32⟩
  | 10 => ⟨S64, .f32⟩
  | 11 => ⟨S128x64, .f32⟩
  | 12 => ⟨S64x2, .f32⟩
  | 13 => ⟨S2, .f32⟩
  | 14 => ⟨S1x600000, .i32⟩
  | 15 => ⟨S600000, .i32⟩
  | 16 => ⟨S1x600000, .i32⟩
  | 17 => ⟨S600000, .i32⟩
  | 18 => ⟨S_, .f32⟩
  | 19 => ⟨S600000, .f32⟩
  | 20 => ⟨S_, .f32⟩
  | 21 => ⟨S50000, .f32⟩
  | 22 => ⟨S600000x1, .i32⟩
  | 23 => ⟨S50000, .f32⟩
  | 24 => ⟨S_, .f32⟩
  | 25 => ⟨S50000, .f32⟩
  | 26 => ⟨S50000, .f32⟩
  | 27 => ⟨S_, .f32⟩
  | 28 => ⟨S50000, .f32⟩
  | 29 => ⟨S50000, .f32⟩
  | 30 => ⟨S_, .i32⟩
  | 31 => ⟨S600000, .i32⟩
  | 32 => ⟨S600000, .i1⟩
  | 33 => ⟨S_, .i32⟩
  | 34 => ⟨S600000, .i32⟩
  | 35 => ⟨S600000, .i32⟩
  | 36 => ⟨S600000, .i32⟩
  | 37 => ⟨S600000x1, .i32⟩
  | 38 => ⟨S600000x128, .f32⟩
  | 39 => ⟨S_, .f32⟩
  | 40 => ⟨S50000x128, .f32⟩
  | 41 => ⟨S600000x1, .i32⟩
  | 42 => ⟨S50000x128, .f32⟩
  | 43 => ⟨S50000x1, .f32⟩
  | 44 => ⟨S50000x128, .f32⟩
  | 45 => ⟨S50000x128, .f32⟩
  | 46 => ⟨S50000x256, .f32⟩
  | 47 => ⟨S1x256, .f32⟩
  | 48 => ⟨S50000x256, .f32⟩
  | 49 => ⟨S50000x256, .f32⟩
  | 50 => ⟨S50000x256, .f32⟩
  | 51 => ⟨S50000x256, .f32⟩
  | 52 => ⟨S_, .f32⟩
  | 53 => ⟨S50000x256, .f32⟩
  | 54 => ⟨S50000x256, .f32⟩
  | 55 => ⟨S_, .i32⟩
  | 56 => ⟨S600000, .i32⟩
  | 57 => ⟨S600000, .i1⟩
  | 58 => ⟨S_, .i32⟩
  | 59 => ⟨S600000, .i32⟩
  | 60 => ⟨S600000, .i32⟩
  | 61 => ⟨S600000, .i32⟩
  | 62 => ⟨S600000x1, .i32⟩
  | 63 => ⟨S600000x256, .f32⟩
  | 64 => ⟨S_, .f32⟩
  | 65 => ⟨S50000x256, .f32⟩
  | 66 => ⟨S600000x1, .i32⟩
  | 67 => ⟨S50000x256, .f32⟩
  | 68 => ⟨S50000x1, .f32⟩
  | 69 => ⟨S50000x256, .f32⟩
  | 70 => ⟨S50000x256, .f32⟩
  | 71 => ⟨S50000x128, .f32⟩
  | 72 => ⟨S1x128, .f32⟩
  | 73 => ⟨S50000x128, .f32⟩
  | 74 => ⟨S50000x128, .f32⟩
  | 75 => ⟨S50000x128, .f32⟩
  | 76 => ⟨S50000x128, .f32⟩
  | 77 => ⟨S_, .f32⟩
  | 78 => ⟨S50000x128, .f32⟩
  | 79 => ⟨S50000x128, .f32⟩
  | 80 => ⟨S_, .i32⟩
  | 81 => ⟨S600000, .i32⟩
  | 82 => ⟨S600000, .i1⟩
  | 83 => ⟨S_, .i32⟩
  | 84 => ⟨S600000, .i32⟩
  | 85 => ⟨S600000, .i32⟩
  | 86 => ⟨S600000, .i32⟩
  | 87 => ⟨S600000x1, .i32⟩
  | 88 => ⟨S600000x128, .f32⟩
  | 89 => ⟨S_, .f32⟩
  | 90 => ⟨S50000x128, .f32⟩
  | 91 => ⟨S600000x1, .i32⟩
  | 92 => ⟨S50000x128, .f32⟩
  | 93 => ⟨S50000x1, .f32⟩
  | 94 => ⟨S50000x128, .f32⟩
  | 95 => ⟨S50000x128, .f32⟩
  | 96 => ⟨S50000x64, .f32⟩
  | 97 => ⟨S1x64, .f32⟩
  | 98 => ⟨S50000x64, .f32⟩
  | 99 => ⟨S50000x64, .f32⟩
  | 100 => ⟨S50000x64, .f32⟩
  | 101 => ⟨S50000x64, .f32⟩
  | 102 => ⟨S_, .f32⟩
  | 103 => ⟨S50000x64, .f32⟩
  | 104 => ⟨S50000x64, .f32⟩
  | 105 => ⟨S_, .f32⟩
  | 106 => ⟨S64x64, .f32⟩
  | 107 => ⟨S50000x1, .i32⟩
  | 108 => ⟨S64x64, .f32⟩
  | 109 => ⟨S_, .f32⟩
  | 110 => ⟨S50000, .f32⟩
  | 111 => ⟨S_, .f32⟩
  | 112 => ⟨S64, .f32⟩
  | 113 => ⟨S50000x1, .i32⟩
  | 114 => ⟨S64, .f32⟩
  | 115 => ⟨S_, .f32⟩
  | 116 => ⟨S64, .f32⟩
  | 117 => ⟨S64, .f32⟩
  | 118 => ⟨S64x1, .f32⟩
  | 119 => ⟨S64x64, .f32⟩
  | 120 => ⟨S64x64, .f32⟩
  | 121 => ⟨S64x2, .f32⟩
  | 122 => ⟨S1x2, .f32⟩
  | 123 => ⟨S64x2, .f32⟩
  | 124 => ⟨S64x2, .f32⟩
  | 125 => ⟨S_, .f32⟩
  | 126 => ⟨S64, .f32⟩
  | 127 => ⟨S_, .f32⟩
  | _ => ⟨S50000x128, .f32⟩

abbrev hbmTy0_1 (i : Nat) : BufTy := match i % 128 with
  | 0 => ⟨S64, .f32⟩
  | 1 => ⟨S64, .f32⟩
  | 2 => ⟨S64x1, .f32⟩
  | 3 => ⟨S64x2, .f32⟩
  | 4 => ⟨S64x2, .f32⟩
  | 5 => ⟨S64x2, .f32⟩
  | 6 => ⟨S_, .f32⟩
  | 7 => ⟨S64, .f32⟩
  | 8 => ⟨S64x1, .f32⟩
  | 9 => ⟨S64x1, .f32⟩
  | 10 => ⟨S64x2, .f32⟩
  | 11 => ⟨S64x2, .f32⟩
  | _ => ⟨S50000x128, .f32⟩

abbrev hbmTy (i : Nat) : BufTy := match i / 128 with
  | 0 => hbmTy0_0 i
  | 1 => hbmTy0_1 i
  | _ => ⟨S50000x128, .f32⟩

abbrev bufTy : (tb : Table) → Fin (tcTables nBuf tb) → BufTy
  | .hbm, ⟨i, _⟩ => hbmTy i
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0 : Ref sig .tc := ⟨.hbm, 14, rfl⟩
abbrev main_v1 : Ref sig .tc := ⟨.hbm, 15, rfl⟩
abbrev main_v2 : Ref sig .tc := ⟨.hbm, 16, rfl⟩
abbrev main_v3 : Ref sig .tc := ⟨.hbm, 17, rfl⟩
abbrev main_cst : Ref sig .tc := ⟨.hbm, 18, rfl⟩
abbrev main_v4 : Ref sig .tc := ⟨.hbm, 19, rfl⟩
abbrev main_cst_0 : Ref sig .tc := ⟨.hbm, 20, rfl⟩
abbrev main_v5 : Ref sig .tc := ⟨.hbm, 21, rfl⟩
abbrev main_v6 : Ref sig .tc := ⟨.hbm, 22, rfl⟩
abbrev main_v7 : Ref sig .tc := ⟨.hbm, 23, rfl⟩
abbrev main_cst_1 : Ref sig .tc := ⟨.hbm, 24, rfl⟩
abbrev main_v8 : Ref sig .tc := ⟨.hbm, 25, rfl⟩
abbrev main_v9 : Ref sig .tc := ⟨.hbm, 26, rfl⟩
abbrev main_cst_2 : Ref sig .tc := ⟨.hbm, 27, rfl⟩
abbrev main_v10 : Ref sig .tc := ⟨.hbm, 28, rfl⟩
abbrev main_v11 : Ref sig .tc := ⟨.hbm, 29, rfl⟩
abbrev main_c : Ref sig .tc := ⟨.hbm, 30, rfl⟩
abbrev main_v12 : Ref sig .tc := ⟨.hbm, 31, rfl⟩
abbrev main_v13 : Ref sig .tc := ⟨.hbm, 32, rfl⟩
abbrev main_c_3 : Ref sig .tc := ⟨.hbm, 33, rfl⟩
abbrev main_v14 : Ref sig .tc := ⟨.hbm, 34, rfl⟩
abbrev main_v15 : Ref sig .tc := ⟨.hbm, 35, rfl⟩
abbrev main_v16 : Ref sig .tc := ⟨.hbm, 36, rfl⟩
abbrev main_v17 : Ref sig .tc := ⟨.hbm, 37, rfl⟩
abbrev main_v18 : Ref sig .tc := ⟨.hbm, 38, rfl⟩
abbrev main_cst_4 : Ref sig .tc := ⟨.hbm, 39, rfl⟩
abbrev main_v19 : Ref sig .tc := ⟨.hbm, 40, rfl⟩
abbrev main_v20 : Ref sig .tc := ⟨.hbm, 41, rfl⟩
abbrev main_v21 : Ref sig .tc := ⟨.hbm, 42, rfl⟩
abbrev main_v22 : Ref sig .tc := ⟨.hbm, 43, rfl⟩
abbrev main_v23 : Ref sig .tc := ⟨.hbm, 44, rfl⟩
abbrev main_v24 : Ref sig .tc := ⟨.hbm, 45, rfl⟩
abbrev main_v25 : Ref sig .tc := ⟨.hbm, 46, rfl⟩
abbrev main_v26 : Ref sig .tc := ⟨.hbm, 47, rfl⟩
abbrev main_v27 : Ref sig .tc := ⟨.hbm, 48, rfl⟩
abbrev main_v28 : Ref sig .tc := ⟨.hbm, 49, rfl⟩
abbrev main_v29 : Ref sig .tc := ⟨.hbm, 50, rfl⟩
abbrev main_v30 : Ref sig .tc := ⟨.hbm, 51, rfl⟩
abbrev main_call0_cst : Ref sig .tc := ⟨.hbm, 52, rfl⟩
abbrev main_call0_v0 : Ref sig .tc := ⟨.hbm, 53, rfl⟩
abbrev main_v31 : Ref sig .tc := ⟨.hbm, 54, rfl⟩
abbrev main_c_5 : Ref sig .tc := ⟨.hbm, 55, rfl⟩
abbrev main_v32 : Ref sig .tc := ⟨.hbm, 56, rfl⟩
abbrev main_v33 : Ref sig .tc := ⟨.hbm, 57, rfl⟩
abbrev main_c_6 : Ref sig .tc := ⟨.hbm, 58, rfl⟩
abbrev main_v34 : Ref sig .tc := ⟨.hbm, 59, rfl⟩
abbrev main_v35 : Ref sig .tc := ⟨.hbm, 60, rfl⟩
abbrev main_v36 : Ref sig .tc := ⟨.hbm, 61, rfl⟩
abbrev main_v37 : Ref sig .tc := ⟨.hbm, 62, rfl⟩
abbrev main_v38 : Ref sig .tc := ⟨.hbm, 63, rfl⟩
abbrev main_cst_7 : Ref sig .tc := ⟨.hbm, 64, rfl⟩
abbrev main_v39 : Ref sig .tc := ⟨.hbm, 65, rfl⟩
abbrev main_v40 : Ref sig .tc := ⟨.hbm, 66, rfl⟩
abbrev main_v41 : Ref sig .tc := ⟨.hbm, 67, rfl⟩
abbrev main_v42 : Ref sig .tc := ⟨.hbm, 68, rfl⟩
abbrev main_v43 : Ref sig .tc := ⟨.hbm, 69, rfl⟩
abbrev main_v44 : Ref sig .tc := ⟨.hbm, 70, rfl⟩
abbrev main_v45 : Ref sig .tc := ⟨.hbm, 71, rfl⟩
abbrev main_v46 : Ref sig .tc := ⟨.hbm, 72, rfl⟩
abbrev main_v47 : Ref sig .tc := ⟨.hbm, 73, rfl⟩
abbrev main_v48 : Ref sig .tc := ⟨.hbm, 74, rfl⟩
abbrev main_v49 : Ref sig .tc := ⟨.hbm, 75, rfl⟩
abbrev main_v50 : Ref sig .tc := ⟨.hbm, 76, rfl⟩
abbrev main_call1_cst : Ref sig .tc := ⟨.hbm, 77, rfl⟩
abbrev main_call1_v0 : Ref sig .tc := ⟨.hbm, 78, rfl⟩
abbrev main_v51 : Ref sig .tc := ⟨.hbm, 79, rfl⟩
abbrev main_c_8 : Ref sig .tc := ⟨.hbm, 80, rfl⟩
abbrev main_v52 : Ref sig .tc := ⟨.hbm, 81, rfl⟩
abbrev main_v53 : Ref sig .tc := ⟨.hbm, 82, rfl⟩
abbrev main_c_9 : Ref sig .tc := ⟨.hbm, 83, rfl⟩
abbrev main_v54 : Ref sig .tc := ⟨.hbm, 84, rfl⟩
abbrev main_v55 : Ref sig .tc := ⟨.hbm, 85, rfl⟩
abbrev main_v56 : Ref sig .tc := ⟨.hbm, 86, rfl⟩
abbrev main_v57 : Ref sig .tc := ⟨.hbm, 87, rfl⟩
abbrev main_v58 : Ref sig .tc := ⟨.hbm, 88, rfl⟩
abbrev main_cst_10 : Ref sig .tc := ⟨.hbm, 89, rfl⟩
abbrev main_v59 : Ref sig .tc := ⟨.hbm, 90, rfl⟩
abbrev main_v60 : Ref sig .tc := ⟨.hbm, 91, rfl⟩
abbrev main_v61 : Ref sig .tc := ⟨.hbm, 92, rfl⟩
abbrev main_v62 : Ref sig .tc := ⟨.hbm, 93, rfl⟩
abbrev main_v63 : Ref sig .tc := ⟨.hbm, 94, rfl⟩
abbrev main_v64 : Ref sig .tc := ⟨.hbm, 95, rfl⟩
abbrev main_v65 : Ref sig .tc := ⟨.hbm, 96, rfl⟩
abbrev main_v66 : Ref sig .tc := ⟨.hbm, 97, rfl⟩
abbrev main_v67 : Ref sig .tc := ⟨.hbm, 98, rfl⟩
abbrev main_v68 : Ref sig .tc := ⟨.hbm, 99, rfl⟩
abbrev main_v69 : Ref sig .tc := ⟨.hbm, 100, rfl⟩
abbrev main_v70 : Ref sig .tc := ⟨.hbm, 101, rfl⟩
abbrev main_call2_cst : Ref sig .tc := ⟨.hbm, 102, rfl⟩
abbrev main_call2_v0 : Ref sig .tc := ⟨.hbm, 103, rfl⟩
abbrev main_v71 : Ref sig .tc := ⟨.hbm, 104, rfl⟩
abbrev main_cst_11 : Ref sig .tc := ⟨.hbm, 105, rfl⟩
abbrev main_v72 : Ref sig .tc := ⟨.hbm, 106, rfl⟩
abbrev main_v73 : Ref sig .tc := ⟨.hbm, 107, rfl⟩
abbrev main_v74 : Ref sig .tc := ⟨.hbm, 108, rfl⟩
abbrev main_cst_12 : Ref sig .tc := ⟨.hbm, 109, rfl⟩
abbrev main_v75 : Ref sig .tc := ⟨.hbm, 110, rfl⟩
abbrev main_cst_13 : Ref sig .tc := ⟨.hbm, 111, rfl⟩
abbrev main_v76 : Ref sig .tc := ⟨.hbm, 112, rfl⟩
abbrev main_v77 : Ref sig .tc := ⟨.hbm, 113, rfl⟩
abbrev main_v78 : Ref sig .tc := ⟨.hbm, 114, rfl⟩
abbrev main_cst_14 : Ref sig .tc := ⟨.hbm, 115, rfl⟩
abbrev main_v79 : Ref sig .tc := ⟨.hbm, 116, rfl⟩
abbrev main_v80 : Ref sig .tc := ⟨.hbm, 117, rfl⟩
abbrev main_v81 : Ref sig .tc := ⟨.hbm, 118, rfl⟩
abbrev main_v82 : Ref sig .tc := ⟨.hbm, 119, rfl⟩
abbrev main_v83 : Ref sig .tc := ⟨.hbm, 120, rfl⟩
abbrev main_v84 : Ref sig .tc := ⟨.hbm, 121, rfl⟩
abbrev main_v85 : Ref sig .tc := ⟨.hbm, 122, rfl⟩
abbrev main_v86 : Ref sig .tc := ⟨.hbm, 123, rfl⟩
abbrev main_v87 : Ref sig .tc := ⟨.hbm, 124, rfl⟩
abbrev main_call3_cst : Ref sig .tc := ⟨.hbm, 125, rfl⟩
abbrev main_call3_v0 : Ref sig .tc := ⟨.hbm, 126, rfl⟩
abbrev main_call3_cst_0 : Ref sig .tc := ⟨.hbm, 127, rfl⟩
abbrev main_call3_v1 : Ref sig .tc := ⟨.hbm, 128, rfl⟩
abbrev main_call3_v2 : Ref sig .tc := ⟨.hbm, 129, rfl⟩
abbrev main_call3_v3 : Ref sig .tc := ⟨.hbm, 130, rfl⟩
abbrev main_call3_v4 : Ref sig .tc := ⟨.hbm, 131, rfl⟩
abbrev main_call3_v5 : Ref sig .tc := ⟨.hbm, 132, rfl⟩
abbrev main_call3_v6 : Ref sig .tc := ⟨.hbm, 133, rfl⟩
abbrev main_call3_cst_1 : Ref sig .tc := ⟨.hbm, 134, rfl⟩
abbrev main_call3_v7 : Ref sig .tc := ⟨.hbm, 135, rfl⟩
abbrev main_call3_v8 : Ref sig .tc := ⟨.hbm, 136, rfl⟩
abbrev main_call3_v9 : Ref sig .tc := ⟨.hbm, 137, rfl⟩
abbrev main_call3_v10 : Ref sig .tc := ⟨.hbm, 138, rfl⟩
abbrev main_v88 : Ref sig .tc := ⟨.hbm, 139, rfl⟩

abbrev nD : Nat := 1
abbrev τ : Topo := Topo.v7x

variable {F : FTy → Type} [FloatOps F]

class Facts₀ : Prop where
  slices_S2x600000_S1x600000_0_0 : S2x600000.Slices ![0, 0] S1x600000
  shapeCasts_S1x600000_S600000 : S1x600000.ShapeCasts S600000
  slices_S2x600000_S1x600000_1_0 : S2x600000.Slices ![1, 0] S1x600000
  bcast_S_S600000 : S_.BroadcastsInDim S600000 (![] : Fin 0 → Fin S600000.rank)
  bcast_S_S50000 : S_.BroadcastsInDim S50000 (![] : Fin 0 → Fin S50000.rank)
  bcast_S600000_S600000x1_0 : S600000.BroadcastsInDim S600000x1 (![0] : Fin 1 → Fin S600000x1.rank)
  bcast_S_S50000x128 : S_.BroadcastsInDim S50000x128 (![] : Fin 0 → Fin S50000x128.rank)
  bcast_S50000_S50000x1_0 : S50000.BroadcastsInDim S50000x1 (![0] : Fin 1 → Fin S50000x1.rank)
  bcast_S50000x1_S50000x128_0_1 : S50000x1.BroadcastsInDim S50000x128 (![0, 1] : Fin 2 → Fin S50000x128.rank)
  bcast_S256_S1x256_1 : S256.BroadcastsInDim S1x256 (![1] : Fin 1 → Fin S1x256.rank)
  bcast_S1x256_S50000x256_0_1 : S1x256.BroadcastsInDim S50000x256 (![0, 1] : Fin 2 → Fin S50000x256.rank)
  bcast_S_S50000x256 : S_.BroadcastsInDim S50000x256 (![] : Fin 0 → Fin S50000x256.rank)
  bcast_S50000x1_S50000x256_0_1 : S50000x1.BroadcastsInDim S50000x256 (![0, 1] : Fin 2 → Fin S50000x256.rank)
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  bcast_S64_S1x64_1 : S64.BroadcastsInDim S1x64 (![1] : Fin 1 → Fin S1x64.rank)
  bcast_S1x64_S50000x64_0_1 : S1x64.BroadcastsInDim S50000x64 (![0, 1] : Fin 2 → Fin S50000x64.rank)
  bcast_S_S50000x64 : S_.BroadcastsInDim S50000x64 (![] : Fin 0 → Fin S50000x64.rank)
  bcast_S_S64x64 : S_.BroadcastsInDim S64x64 (![] : Fin 0 → Fin S64x64.rank)
  bcast_S_S64 : S_.BroadcastsInDim S64 (![] : Fin 0 → Fin S64.rank)
  bcast_S64_S64x1_0 : S64.BroadcastsInDim S64x1 (![0] : Fin 1 → Fin S64x1.rank)
  bcast_S64x1_S64x64_0_1 : S64x1.BroadcastsInDim S64x64 (![0, 1] : Fin 2 → Fin S64x64.rank)
  bcast_S2_S1x2_1 : S2.BroadcastsInDim S1x2 (![1] : Fin 1 → Fin S1x2.rank)
  bcast_S1x2_S64x2_0_1 : S1x2.BroadcastsInDim S64x2 (![0, 1] : Fin 2 → Fin S64x2.rank)
  reducesTo_S64x2_S64_d1 : S64x2.ReducesTo [1] S64
  h_S_ : 0 < S_.numel
  bcast_S64x1_S64x2_0_1 : S64x1.BroadcastsInDim S64x2 (![0, 1] : Fin 2 → Fin S64x2.rank)
  scatter_S50000_S600000x1_S600000_n_0_0_1_wf : ScatterDims.WF S50000 S600000x1 S600000 [] [0] [0] 1
  gather_S50000x128_S600000x1_S600000x128_1_0_n_n_0_1_1128_wf : GatherDims.WF S50000x128 S600000x1 S600000x128 [1] [0] [] [0] [] 1 ![1, 128]
  scatter_S50000x128_S600000x1_S600000x128_1_0_0_1_wf : ScatterDims.WF S50000x128 S600000x1 S600000x128 [1] [0] [0] 1
  dot_S50000x128_S128x256_S50000x256_1_0_0_1_n_n_wf : DotDims.WF S50000x128 S128x256 S50000x256 [1] [0] [0] [1] [] []
  gather_S50000x256_S600000x1_S600000x256_1_0_n_n_0_1_1256_wf : GatherDims.WF S50000x256 S600000x1 S600000x256 [1] [0] [] [0] [] 1 ![1, 256]
  scatter_S50000x256_S600000x1_S600000x256_1_0_0_1_wf : ScatterDims.WF S50000x256 S600000x1 S600000x256 [1] [0] [0] 1
  dot_S50000x256_S256x128_S50000x128_1_0_0_1_n_n_wf : DotDims.WF S50000x256 S256x128 S50000x128 [1] [0] [0] [1] [] []
  dot_S50000x128_S128x64_S50000x64_1_0_0_1_n_n_wf : DotDims.WF S50000x128 S128x64 S50000x64 [1] [0] [0] [1] [] []
  scatter_S64x64_S50000x1_S50000x64_1_0_0_1_wf : ScatterDims.WF S64x64 S50000x1 S50000x64 [1] [0] [0] 1
  scatter_S64_S50000x1_S50000_n_0_0_1_wf : ScatterDims.WF S64 S50000x1 S50000 [] [0] [0] 1
  dot_S64x64_S64x2_S64x2_1_0_0_1_n_n_wf : DotDims.WF S64x64 S64x2 S64x2 [1] [0] [0] [1] [] []

variable [Facts₀]

def scatter_S50000_S600000x1_S600000_n_0_0_1 : ScatterDims S50000 S600000x1 S600000 where
  updateWindowDims := []
  insertedWindowDims := [0]
  scatterDimsToOperandDims := [0]
  indexVectorDim := 1
  wf := scatter_S50000_S600000x1_S600000_n_0_0_1_wf
def gather_S50000x128_S600000x1_S600000x128_1_0_n_n_0_1_1128 : GatherDims S50000x128 S600000x1 S600000x128 where
  offsetDims := [1]
  collapsedSliceDims := [0]
  operandBatchingDims := []
  startIndicesBatchingDims := []
  startIndexMap := [0]
  indexVectorDim := 1
  sliceSizes := ![1, 128]
  wf := gather_S50000x128_S600000x1_S600000x128_1_0_n_n_0_1_1128_wf
def scatter_S50000x128_S600000x1_S600000x128_1_0_0_1 : ScatterDims S50000x128 S600000x1 S600000x128 where
  updateWindowDims := [1]
  insertedWindowDims := [0]
  scatterDimsToOperandDims := [0]
  indexVectorDim := 1
  wf := scatter_S50000x128_S600000x1_S600000x128_1_0_0_1_wf
def dot_S50000x128_S128x256_S50000x256_1_0_0_1_n_n : DotDims S50000x128 S128x256 S50000x256 where
  lhsContracting := [1]
  rhsContracting := [0]
  lhsNonContracting := [0]
  rhsNonContracting := [1]
  lhsBatch := []
  rhsBatch := []
  wf := dot_S50000x128_S128x256_S50000x256_1_0_0_1_n_n_wf
def gather_S50000x256_S600000x1_S600000x256_1_0_n_n_0_1_1256 : GatherDims S50000x256 S600000x1 S600000x256 where
  offsetDims := [1]
  collapsedSliceDims := [0]
  operandBatchingDims := []
  startIndicesBatchingDims := []
  startIndexMap := [0]
  indexVectorDim := 1
  sliceSizes := ![1, 256]
  wf := gather_S50000x256_S600000x1_S600000x256_1_0_n_n_0_1_1256_wf
def scatter_S50000x256_S600000x1_S600000x256_1_0_0_1 : ScatterDims S50000x256 S600000x1 S600000x256 where
  updateWindowDims := [1]
  insertedWindowDims := [0]
  scatterDimsToOperandDims := [0]
  indexVectorDim := 1
  wf := scatter_S50000x256_S600000x1_S600000x256_1_0_0_1_wf
def dot_S50000x256_S256x128_S50000x128_1_0_0_1_n_n : DotDims S50000x256 S256x128 S50000x128 where
  lhsContracting := [1]
  rhsContracting := [0]
  lhsNonContracting := [0]
  rhsNonContracting := [1]
  lhsBatch := []
  rhsBatch := []
  wf := dot_S50000x256_S256x128_S50000x128_1_0_0_1_n_n_wf
def dot_S50000x128_S128x64_S50000x64_1_0_0_1_n_n : DotDims S50000x128 S128x64 S50000x64 where
  lhsContracting := [1]
  rhsContracting := [0]
  lhsNonContracting := [0]
  rhsNonContracting := [1]
  lhsBatch := []
  rhsBatch := []
  wf := dot_S50000x128_S128x64_S50000x64_1_0_0_1_n_n_wf
def scatter_S64x64_S50000x1_S50000x64_1_0_0_1 : ScatterDims S64x64 S50000x1 S50000x64 where
  updateWindowDims := [1]
  insertedWindowDims := [0]
  scatterDimsToOperandDims := [0]
  indexVectorDim := 1
  wf := scatter_S64x64_S50000x1_S50000x64_1_0_0_1_wf
def scatter_S64_S50000x1_S50000_n_0_0_1 : ScatterDims S64 S50000x1 S50000 where
  updateWindowDims := []
  insertedWindowDims := [0]
  scatterDimsToOperandDims := [0]
  indexVectorDim := 1
  wf := scatter_S64_S50000x1_S50000_n_0_0_1_wf
def dot_S64x64_S64x2_S64x2_1_0_0_1_n_n : DotDims S64x64 S64x2 S64x2 where
  lhsContracting := [1]
  rhsContracting := [0]
  lhsNonContracting := [0]
  rhsNonContracting := [1]
  lhsBatch := []
  rhsBatch := []
  wf := dot_S64x64_S64x2_S64x2_1_0_0_1_n_n_wf

class Facts : Prop extends Facts₀ where

variable [Facts]
-- ==== Proof.KRun.lean ====
/-
  The idealized kernel's run with its result named.

  The program is eight segments: a stretch of host operations, a dense-layer region, a stretch, a region, a stretch, a
  region, and two closing stretches. The contents of the TensorCore's buffers at each boundary are a fold from the
  launch memory (`W0` … `W8`): a stretch applies its operations, a region replaces its arrays by what its write-backs
  leave. Every weakly fair execution ends with each unscoped buffer at the last boundary's contents; read at the
  result buffer this names the result, read at an argument it gives the launch contents back.
-/
import proofs.«133121_j40613210751535_1_alg».proof.Proof.Gen.KernelIdeal.Frame

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution terminates without a fault, the result buffer holding the last boundary's contents
    and every argument array its launch contents. -/
theorem run_result : θ_run defs (onTc (τ := τ) (main (F := F))) ⟨m, fun _ => 0, ρ⟩ (fun r => ∀ c : Dev nD,
      r.2.mem ((c.tc : Thread nD τ).loc main_v73) = W8 m ρ c (Proc.devRef .tc main_v73)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W8 m ρ c b)
    (hfin := fun c s' => by
      iintro ⟨⟨Hh, -⟩, HSI⟩
      unfold StableHlo.held
      imodintro
      iapply (pointsTo_read_all (Pipeline.ucRefs τ sig) (fun b => (((c : Thread nD τ)).1, b)) (W8 m ρ c) s')
      isplitl [Hh] <;> iassumption)
    (hQ := fun s h c =>
      ⟨h c _ (mem_uc main_v73 (by decide)),
       (h c _ (mem_uc main_arg0 (by decide))).trans (W8_main_arg0 m ρ c),
       (h c _ (mem_uc main_arg1 (by decide))).trans (W8_main_arg1 m ρ c),
       (h c _ (mem_uc main_arg2 (by decide))).trans (W8_main_arg2 m ρ c),
       (h c _ (mem_uc main_arg3 (by decide))).trans (W8_main_arg3 m ρ c),
       (h c _ (mem_uc main_arg4 (by decide))).trans (W8_main_arg4 m ρ c),
       (h c _ (mem_uc main_arg5 (by decide))).trans (W8_main_arg5 m ρ c),
       (h c _ (mem_uc main_arg6 (by decide))).trans (W8_main_arg6 m ρ c),
       (h c _ (mem_uc main_arg7 (by decide))).trans (W8_main_arg7 m ρ c),
       (h c _ (mem_uc main_arg8 (by decide))).trans (W8_main_arg8 m ρ c),
       (h c _ (mem_uc main_arg9 (by decide))).trans (W8_main_arg9 m ρ c),
       (h c _ (mem_uc main_arg10 (by decide))).trans (W8_main_arg10 m ρ c),
       (h c _ (mem_uc main_arg11 (by decide))).trans (W8_main_arg11 m ρ c),
       (h c _ (mem_uc main_arg12 (by decide))).trans (W8_main_arg12 m ρ c),
       (h c _ (mem_uc main_arg13 (by decide))).trans (W8_main_arg13 m ρ c)⟩)

end Cert.KernelIdeal.Gen

end
-- ==== Proof.LibDense.lean ====
/-
  A dense layer on the extended reals, index by index, and the readings that bring a vector unit's matrix
  product, the host's dot_general and a bias row to it.

  For a left operand `a : [n, K]`, a right operand `w : [K, d]` the product's entry (r, j) is the finite sum
  `∑ k, a (r, k) * w (k, j)`; a sum on the extended reals is a sum in a commutative monoid, so no order, grouping or
  tiling of it matters and no finiteness is needed anywhere in this file.
-/
import Idealize.ShloMosaic.PureOps.Ideal
import Idealize.ShloMosaic.PureOps.Ideal.Laws
import Idealize.ShloMosaic.Lib.ValueIdx
import Idealize.ShloMosaic.Lib.Pipeline.Value

noncomputable section

namespace Cert.LibDense

open Idealize.ShloMosaic Idealize.ShloMosaic.ValueIdx

/-- Entry (r, j) of the product of `a : [n, K]` and `w : [K, d]`. -/
def prod {n K d : ℕ} (a : (⟨2, ![n, K]⟩ : Shape).Idx → EReal) (w : (⟨2, ![K, d]⟩ : Shape).Idx → EReal) :
    (⟨2, ![n, d]⟩ : Shape).Idx → EReal :=
  fun i => ∑ k : Fin K, a (ix2 (i 0) k) * w (ix2 k (i 1))

/-- The affine part of a graph-convolution layer: `(mean · Wl + xt · Wr) + b`, the bias added to every row. -/
def affine {n K d : ℕ} (mean xt : (⟨2, ![n, K]⟩ : Shape).Idx → EReal) (wl wr : (⟨2, ![K, d]⟩ : Shape).Idx → EReal)
    (b : (⟨1, ![d]⟩ : Shape).Idx → EReal) : (⟨2, ![n, d]⟩ : Shape).Idx → EReal :=
  fun i => (prod mean wl i + prod xt wr i) + b (ix1 (i 1))

/-- The layer with the rectifier: the larger of the affine part and the zero word's value. -/
def relu {n K d : ℕ} (mean xt : (⟨2, ![n, K]⟩ : Shape).Idx → EReal) (wl wr : (⟨2, ![K, d]⟩ : Shape).Idx → EReal)
    (b : (⟨1, ![d]⟩ : Shape).Idx → EReal) : (⟨2, ![n, d]⟩ : Shape).Idx → EReal :=
  fun i => max (affine mean xt wl wr b i) (Ideal.ofBits .f32 0x00000000#32)

/-- An entry of the affine part reads one row of each row operand, one column of each weight and one bias entry: two
    sets of operands that agree there give the same entry. -/
theorem affine_congr {n n' K d : ℕ} (a x : (⟨2, ![n, K]⟩ : Shape).Idx → EReal) (a' x' : (⟨2, ![n', K]⟩ : Shape).Idx → EReal)
    (wl wr wl' wr' : (⟨2, ![K, d]⟩ : Shape).Idx → EReal) (b b' : (⟨1, ![d]⟩ : Shape).Idx → EReal)
    (i : (⟨2, ![n, d]⟩ : Shape).Idx) (i' : (⟨2, ![n', d]⟩ : Shape).Idx)
    (ha : ∀ k : Fin K, a (ix2 (i 0) k) = a' (ix2 (i' 0) k)) (hx : ∀ k : Fin K, x (ix2 (i 0) k) = x' (ix2 (i' 0) k))
    (hwl : ∀ k : Fin K, wl (ix2 k (i 1)) = wl' (ix2 k (i' 1))) (hwr : ∀ k : Fin K, wr (ix2 k (i 1)) = wr' (ix2 k (i' 1)))
    (hb : b (ix1 (i 1)) = b' (ix1 (i' 1))) :
    affine a x wl wr b i = affine a' x' wl' wr' b' i' := by
  unfold affine prod
  rw [hb, Finset.sum_congr rfl (fun k _ => congrArg₂ (· * ·) (ha k) (hwl k)),
    Finset.sum_congr rfl (fun k _ => congrArg₂ (· * ·) (hx k) (hwr k))]

/-- The same for the layer with the rectifier. -/
theorem relu_congr {n n' K d : ℕ} (a x : (⟨2, ![n, K]⟩ : Shape).Idx → EReal) (a' x' : (⟨2, ![n', K]⟩ : Shape).Idx → EReal)
    (wl wr wl' wr' : (⟨2, ![K, d]⟩ : Shape).Idx → EReal) (b b' : (⟨1, ![d]⟩ : Shape).Idx → EReal)
    (i : (⟨2, ![n, d]⟩ : Shape).Idx) (i' : (⟨2, ![n', d]⟩ : Shape).Idx)
    (ha : ∀ k : Fin K, a (ix2 (i 0) k) = a' (ix2 (i' 0) k)) (hx : ∀ k : Fin K, x (ix2 (i 0) k) = x' (ix2 (i' 0) k))
    (hwl : ∀ k : Fin K, wl (ix2 k (i 1)) = wl' (ix2 k (i' 1))) (hwr : ∀ k : Fin K, wr (ix2 k (i 1)) = wr' (ix2 k (i' 1)))
    (hb : b (ix1 (i 1)) = b' (ix1 (i' 1))) :
    relu a x wl wr b i = relu a' x' wl' wr' b' i' := by
  unfold relu
  rw [affine_congr a x a' x' wl wr wl' wr' b b' i i' ha hx hwl hwr hb]

/-! ## The contraction index of a plain `[M, K] × [K, N]` product is `Fin K` -/

theorem plain_lhs0 (M K N : ℕ) (i : (⟨2, ![M, N]⟩ : Shape).Idx) (q : (DotDims.plain M K N).contr.Idx) :
    ((DotDims.plain M K N).lhsIdx i q 0).val = (i 0).val := by
  unfold DotDims.lhsIdx
  rw [dif_neg (show ¬(0 : Fin (⟨2, ![M, K]⟩ : Shape).rank) ∈ (DotDims.plain M K N).lhsBatch from List.not_mem_nil),
    dif_pos (show (0 : Fin (⟨2, ![M, K]⟩ : Shape).rank) ∈ (DotDims.plain M K N).lhsNonContracting from List.mem_singleton.mpr rfl)]
  rfl

theorem plain_rhs1 (M K N : ℕ) (i : (⟨2, ![M, N]⟩ : Shape).Idx) (q : (DotDims.plain M K N).contr.Idx) :
    ((DotDims.plain M K N).rhsIdx i q 1).val = (i 1).val := by
  unfold DotDims.rhsIdx
  rw [dif_neg (show ¬(1 : Fin (⟨2, ![K, N]⟩ : Shape).rank) ∈ (DotDims.plain M K N).rhsBatch from List.not_mem_nil),
    dif_pos (show (1 : Fin (⟨2, ![K, N]⟩ : Shape).rank) ∈ (DotDims.plain M K N).rhsNonContracting from List.mem_singleton.mpr rfl)]
  rfl

/-- The sum over the product's contraction index, re-indexed by `Fin K`, is the row-by-column sum. -/
theorem plain_sum (M K N : ℕ) (x : (⟨2, ![M, K]⟩ : Shape).Idx → EReal) (w : (⟨2, ![K, N]⟩ : Shape).Idx → EReal)
    (i : (⟨2, ![M, N]⟩ : Shape).Idx) :
    ∑ q : (DotDims.plain M K N).contr.Idx, x ((DotDims.plain M K N).lhsIdx i q) * w ((DotDims.plain M K N).rhsIdx i q)
      = prod x w i := by
  unfold prod
  rw [← Equiv.sum_comp (contrEquiv1 (DotDims.plain M K N) K rfl rfl).symm]
  refine Finset.sum_congr rfl fun k _ => ?_
  have hk := contrEquiv1_symm_val (DotDims.plain M K N) K rfl rfl k
  have el : (DotDims.plain M K N).lhsIdx i ((contrEquiv1 (DotDims.plain M K N) K rfl rfl).symm k) = ix2 (i 0) k :=
    funext fun a => Fin.ext (by
      match a with
      | ⟨0, _⟩ => exact plain_lhs0 M K N i _
      | ⟨1, _⟩ => exact ((DotDims.plain M K N).lhsIdx_val_of_single rfl i _).trans hk)
  have er : (DotDims.plain M K N).rhsIdx i ((contrEquiv1 (DotDims.plain M K N) K rfl rfl).symm k) = ix2 k (i 1) :=
    funext fun a => Fin.ext (by
      match a with
      | ⟨0, _⟩ => exact ((DotDims.plain M K N).rhsIdx_val_of_single rfl i _).trans hk
      | ⟨1, _⟩ => exact plain_rhs1 M K N i _)
  exact congrArg₂ (· * ·) (congrArg x el) (congrArg w er)

/-- A vector unit's matrix product into the zero accumulator, at an entry. -/
theorem matmul_plain {M K N : ℕ} {φ₁ φ₂ : FTy} (x : FVec Ideal ⟨2, ![M, K]⟩ φ₁) (w : FVec Ideal ⟨2, ![K, N]⟩ φ₂)
    (i : (⟨2, ![M, N]⟩ : Shape).Idx) :
    FloatOps.matmul (DotDims.plain M K N) none x w (constant (F := Ideal) ⟨2, ![M, N]⟩ .f32 0x00000000#32) i = prod x w i := by
  rw [Ideal.matmul_constant_zero_apply]
  exact plain_sum M K N x w i

/-- The host's dot_general of the same dimensions, at an entry. -/
theorem dotGeneral_plain {M K N : ℕ} (sched : HostSchedule) (x : (⟨2, ![M, K]⟩ : Shape).Idx → EReal) (w : (⟨2, ![K, N]⟩ : Shape).Idx → EReal)
    (i : (⟨2, ![M, N]⟩ : Shape).Idx) :
    FloatOps.dotGeneral (F := Ideal) (φ₁ := .f32) (φ₂ := .f32) (DotDims.plain M K N) none sched x w i = prod x w i := by
  rw [Ideal.dotGeneral_apply]
  exact plain_sum M K N x w i

/-! ## A bias row -/

/-- A vector `b : [d]` cast to `[1, d]` and broadcast down `n` rows, at entry (r, j), is `b j`. -/
theorem bias_row {n d : ℕ} (b : (⟨1, ![d]⟩ : Shape).Idx → EReal) (h1 : (⟨1, ![d]⟩ : Shape).ShapeCasts ⟨2, ![1, d]⟩)
    (h2 : (⟨2, ![1, d]⟩ : Shape).Broadcasts ⟨2, ![n, d]⟩) (i : (⟨2, ![n, d]⟩ : Shape).Idx) :
    broadcastTo ⟨2, ![n, d]⟩ (shapeCast ⟨2, ![1, d]⟩ b h1) h2 i = b (ix1 (i 1)) := by
  refine (broadcastTo_apply _ h2 i (ix2 ⟨0, Nat.one_pos⟩ (i 1)) (fun a => ?_)).trans ?_
  · match a with
    | ⟨0, _⟩ => exact (if_pos rfl).symm
    | ⟨1, _⟩ =>
      show (i 1).val = if d = 1 then 0 else (i 1).val
      have hlt : (i 1).val < d := idx2_lt1 i
      split
      · omega
      · rfl
  · refine (shapeCast_addUnit_apply ![d] b h1 _).trans (congrArg b (funext fun a => ?_))
    match a with
    | ⟨0, _⟩ => rfl

end Cert.LibDense

end
-- ==== Proof.Region.lean ====
/-
  What each dense-layer region leaves in its output array, as one function of the arrays it is entered with.

  A region runs ten grid points. Point `t` loads rows 5000 t … 5000 t + 4999 of the two row operands (the
  neighbourhood means and the node features), the two weight matrices and the bias row whole, and stores
  `max ((mean · Wl + x · Wr) + b, 0)` for its 5000 rows. An entry of the layer depends on one row of each row operand,
  so block `t` of the layer of the whole arrays is the layer of the blocks at `t`; the ten blocks tile the array.
-/
import proofs.«133121_j40613210751535_1_alg».proof.Proof.Gen.KernelIdeal.Frame
import proofs.«133121_j40613210751535_1_alg».proof.Proof.LibDense
import Idealize.ShloMosaic.Lib.ValueIdx
import Idealize.ShloMosaic.Lib.Pipeline.Value

set_option maxRecDepth 16384

noncomputable section

namespace Cert.KernelIdeal.Dense

open Cert.KernelIdeal Cert.KernelIdeal.Gen
open Idealize.ShloMosaic Idealize.ShloMosaic.TcCoe Idealize.ShloMosaic.ValueIdx Idealize.SL.Sem
open Idealize.ShloMosaic.Pipeline (Dat Cfg Window)

variable (V : (c : Dev nD) → (b : Ref sig .tc) → Buf (Elt Ideal) ((c : Thread nD τ).loc b))

theorem hz : (![0, 0] : Fin 2 → Nat) = fun _ => 0 := funext fun a => by fin_cases a <;> rfl

/-! ## Region 0: rows of 128 features to rows of 256 -/

theorem dot0_plain : dot_S5000x128_S128x256_S5000x256_1_0_0_1_n_n = DotDims.plain 5000 128 256 := rfl

/-- The body's one store at an entry (r, o) of the block: the larger of zero and
    `(∑ₖ a (r, k) · wl (k, o) + ∑ₖ x (r, k) · wr (k, o)) + b (0, o)`. The changes of float format are the identity on the
    extended reals, and each matrix product into the zero accumulator is the row-by-column sum. -/
theorem pay0 (x0 x1 : Vec Ideal S5000x128 .f32) (x2 x4 : Vec Ideal S128x256 .f32) (x3 : Vec Ideal S1x256 .f32) (j : S5000x256.Idx) :
    k0_pay1 (F := Ideal) x0 x1 x2 x4 x3 j
      = Cert.LibDense.relu (n := 5000) (K := 128) (d := 256) x0 x1 x2 x4 (fun q => x3 (ix2 ⟨0, Nat.one_pos⟩ (q 0))) j := by
  unfold k0_pay1 Cert.LibDense.relu Cert.LibDense.affine
  dsimp only
  refine congrArg₂ max (congrArg₂ (· + ·) (congrArg₂ (· + ·) ?_ ?_) ?_) rfl
  · rw [shapeCast_self, dot0_plain]
    exact Cert.LibDense.matmul_plain (M := 5000) (K := 128) (N := 256) _ _ j
  · rw [dot0_plain]
    exact Cert.LibDense.matmul_plain (M := 5000) (K := 128) (N := 256) _ _ j
  · rw [shapeCast_self]
    refine broadcastTo_apply x3 _ j (ix2 ⟨0, Nat.one_pos⟩ (j 1)) (fun a => ?_)
    match a with
    | ⟨0, _⟩ => exact (if_pos rfl).symm
    | ⟨1, _⟩ =>
      show (j 1).val = if (256 : ℕ) = 1 then 0 else (j 1).val
      rw [if_neg (by decide)]

/-- The whole-array function the region's output ends at: the dense layer of the arrays as the region finds them. -/
abbrev G0 (c : Dev nD) : S50000x256.Idx → EReal :=
  Cert.LibDense.relu (n := 50000) (K := 128) (d := 256) (V c main_v24) (V c main_arg0) (V c main_arg3) (V c main_arg5)
    (fun q => V c main_v25 (ix2 ⟨0, Nat.one_pos⟩ (q 0)))

/-- The printed index maps over the ten grid points: the row windows sit at block row `t`, the weights and the bias at
    block (0, 0). -/
theorem idx_facts0 : ∀ t : Fin cfg0.N, win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = t.val ∧ win0_5.index t (1 : Fin 2) = 0 :=
  (by decide +kernel : ∀ t : Fin grid0.N, _)

/-- Every block row is some point's. -/
theorem idx_onto0 : ∀ q : Fin 10, ∃ t : Fin cfg0.N, win0_5.index t = ![q.val, 0] :=
  (by decide +kernel : ∀ q : Fin 10, ∃ t : Fin grid0.N, win0_5.index t = ![q.val, 0])

/-- What point `t` writes back is block `t` of the dense layer of the whole arrays: entry (r, o) of the block is entry
    (5000 t + r, o) of the array, which reads row 5000 t + r of the two row operands — row r of their blocks at `t` —,
    column o of the weights and entry o of the bias. -/
theorem flushed0 (c : Dev nD) (t : Fin cfg0.N) :
    (dat0 (F := Ideal) V c).flushed 5 t = ((cfg0.win 5).blk t).view.read (Elt Ideal) (G0 V c) := by
  show (cfg0.win 5).cut (grid0.coords t) ((dat0 (F := Ideal) V c).after 5 t) = _
  rw [after0_5]
  unfold out0_5
  rw [View.canon_unit_zero hz]
  simp only [View.ld_unit_zero (S := S5000x128) hz, View.ld_unit_zero (S := S128x256) hz, View.ld_unit_zero (S := S1x256) hz]
  obtain ⟨e00, e01, e10, e11, e20, e21, e30, e31, e40, e41, e50, e51⟩ := idx_facts0 t
  funext j
  refine (pay0 (iblk0 V c 0 t) (iblk0 V c 1 t) (iblk0 V c 2 t) (iblk0 V c 4 t) (iblk0 V c 3 t) j).trans ?_
  show _ = Cert.LibDense.relu (n := 50000) (K := 128) (d := 256) (V c main_v24) (V c main_arg0) (V c main_arg3) (V c main_arg5)
    (fun q => V c main_v25 (ix2 ⟨0, Nat.one_pos⟩ (q 0))) (((cfg0.win 5).blk t).view.emb j)
  have hj0 : (j 0).val < 5000 := (j 0).isLt
  have hj1 : (j 1).val < 256 := (j 1).isLt
  refine Cert.LibDense.relu_congr _ _ _ _ _ _ _ _ _ _ j _ (fun k => ?_) (fun k => ?_) (fun k => ?_) (fun k => ?_) ?_
  · show V c main_v24 (((cfg0.win 0).blk t).view.emb (ix2 (j 0) k)) = V c main_v24 (ix2 ((((cfg0.win 5).blk t).view.emb j) 0) k)
    refine congrArg _ (funext fun a => Fin.ext ?_)
    match a with
    | ⟨0, _⟩ => show win0_0.index t (0 : Fin 2) * 5000 + 1 * (j 0).val = win0_5.index t (0 : Fin 2) * 5000 + 1 * (j 0).val; omega
    | ⟨1, _⟩ => show win0_0.index t (1 : Fin 2) * 128 + 1 * k.val = k.val; omega
  · show V c main_arg0 (((cfg0.win 1).blk t).view.emb (ix2 (j 0) k)) = V c main_arg0 (ix2 ((((cfg0.win 5).blk t).view.emb j) 0) k)
    refine congrArg _ (funext fun a => Fin.ext ?_)
    match a with
    | ⟨0, _⟩ => show win0_1.index t (0 : Fin 2) * 5000 + 1 * (j 0).val = win0_5.index t (0 : Fin 2) * 5000 + 1 * (j 0).val; omega
    | ⟨1, _⟩ => show win0_1.index t (1 : Fin 2) * 128 + 1 * k.val = k.val; omega
  · show V c main_arg3 (((cfg0.win 2).blk t).view.emb (ix2 k (j 1))) = V c main_arg3 (ix2 k ((((cfg0.win 5).blk t).view.emb j) 1))
    refine congrArg _ (funext fun a => Fin.ext ?_)
    match a with
    | ⟨0, _⟩ => show win0_2.index t (0 : Fin 2) * 128 + 1 * k.val = k.val; omega
    | ⟨1, _⟩ => show win0_2.index t (1 : Fin 2) * 256 + 1 * (j 1).val = win0_5.index t (1 : Fin 2) * 256 + 1 * (j 1).val; omega
  · show V c main_arg5 (((cfg0.win 4).blk t).view.emb (ix2 k (j 1))) = V c main_arg5 (ix2 k ((((cfg0.win 5).blk t).view.emb j) 1))
    refine congrArg _ (funext fun a => Fin.ext ?_)
    match a with
    | ⟨0, _⟩ => show win0_4.index t (0 : Fin 2) * 128 + 1 * k.val = k.val; omega
    | ⟨1, _⟩ => show win0_4.index t (1 : Fin 2) * 256 + 1 * (j 1).val = win0_5.index t (1 : Fin 2) * 256 + 1 * (j 1).val; omega
  · show V c main_v25 (((cfg0.win 3).blk t).view.emb (ix2 ⟨0, Nat.one_pos⟩ (j 1))) = V c main_v25 (ix2 ⟨0, Nat.one_pos⟩ ((((cfg0.win 5).blk t).view.emb j) 1))
    refine congrArg _ (funext fun a => Fin.ext ?_)
    match a with
    | ⟨0, _⟩ => show win0_3.index t (0 : Fin 2) * 1 + 1 * 0 = 0; omega
    | ⟨1, _⟩ => show win0_3.index t (1 : Fin 2) * 256 + 1 * (j 1).val = win0_5.index t (1 : Fin 2) * 256 + 1 * (j 1).val; omega

/-- An index of the output array lies in point `t`'s block iff each coordinate lies in the block's range. -/
theorem mem_blk0 (t : Fin cfg0.N) (i : S50000x256.Idx) :
    i ∈ ((cfg0.win 5).blk t).view.set ↔ ∀ a : Fin 2, win0_5.index t a * S5000x256.size a ≤ (i a).val ∧ (i a).val < win0_5.index t a * S5000x256.size a + S5000x256.size a := by
  show i ∈ ((View.whole main_v26).slice (win0_5.rect t)).set ↔ _
  rw [View.set_slice_whole, Rect.mem_set_unit]
  exact Iff.rfl

/-- The ten blocks of 5000 rows tile the 50000 rows: row `r` lies in the block of point `r / 5000`. -/
theorem cover0 (i : S50000x256.Idx) :
    ∃ t : Fin cfg0.N, (cfg0.win 5).flush t = true ∧ i ∈ ((cfg0.win 5).blk t).view.set := by
  have hi0 : (i 0).val < 50000 := (i 0).isLt
  have hi1 : (i 1).val < 256 := (i 1).isLt
  obtain ⟨t, ht⟩ := idx_onto0 ⟨(i 0).val / 5000, by omega⟩
  have q0 : win0_5.index t (0 : Fin 2) = (i 0).val / 5000 := congrFun ht 0
  have q1 : win0_5.index t (1 : Fin 2) = 0 := congrFun ht 1
  refine ⟨t, flush0_5 t, ?_⟩
  rw [mem_blk0]
  intro a
  match a with
  | ⟨0, _⟩ => show win0_5.index t (0 : Fin 2) * 5000 ≤ (i 0).val ∧ (i 0).val < win0_5.index t (0 : Fin 2) * 5000 + 5000; omega
  | ⟨1, _⟩ => show win0_5.index t (1 : Fin 2) * 256 ≤ (i 1).val ∧ (i 1).val < win0_5.index t (1 : Fin 2) * 256 + 256; omega

/-- The region's output array after its ten write-backs is the dense layer of the arrays it was entered with. -/
theorem value0 (c : Dev nD) : (dat0 (F := Ideal) V c).arrAt 5 cfg0.N = G0 V c :=
  (dat0 (F := Ideal) V c).arrAt_eq_of_cover 5 (G0 V c) (fun t _ => flushed0 V c t) cover0

/-! ## Region 1: rows of 256 features to rows of 128 -/

theorem dot1_plain : dot_S5000x256_S256x128_S5000x128_1_0_0_1_n_n = DotDims.plain 5000 256 128 := rfl

/-- The body's one store at an entry (r, o) of the block: the larger of zero and
    `(∑ₖ a (r, k) · wl (k, o) + ∑ₖ x (r, k) · wr (k, o)) + b (0, o)`. The changes of float format are the identity on the
    extended reals, and each matrix product into the zero accumulator is the row-by-column sum. -/
theorem pay1 (x0 x1 : Vec Ideal S5000x256 .f32) (x2 x4 : Vec Ideal S256x128 .f32) (x3 : Vec Ideal S1x128 .f32) (j : S5000x128.Idx) :
    k1_pay1 (F := Ideal) x0 x1 x2 x4 x3 j
      = Cert.LibDense.relu (n := 5000) (K := 256) (d := 128) x0 x1 x2 x4 (fun q => x3 (ix2 ⟨0, Nat.one_pos⟩ (q 0))) j := by
  unfold k1_pay1 Cert.LibDense.relu Cert.LibDense.affine
  dsimp only
  refine congrArg₂ max (congrArg₂ (· + ·) (congrArg₂ (· + ·) ?_ ?_) ?_) rfl
  · rw [shapeCast_self, dot1_plain]
    exact Cert.LibDense.matmul_plain (M := 5000) (K := 256) (N := 128) _ _ j
  · rw [shapeCast_self, dot1_plain]
    exact Cert.LibDense.matmul_plain (M := 5000) (K := 256) (N := 128) _ _ j
  · rw [shapeCast_self]
    refine broadcastTo_apply x3 _ j (ix2 ⟨0, Nat.one_pos⟩ (j 1)) (fun a => ?_)
    match a with
    | ⟨0, _⟩ => exact (if_pos rfl).symm
    | ⟨1, _⟩ =>
      show (j 1).val = if (128 : ℕ) = 1 then 0 else (j 1).val
      rw [if_neg (by decide)]

/-- The whole-array function the region's output ends at: the dense layer of the arrays as the region finds them. -/
abbrev G1 (c : Dev nD) : S50000x128.Idx → EReal :=
  Cert.LibDense.relu (n := 50000) (K := 256) (d := 128) (V c main_v39) (V c main_v26) (V c main_arg6) (V c main_arg8)
    (fun q => V c main_v40 (ix2 ⟨0, Nat.one_pos⟩ (q 0)))

/-- The printed index maps over the ten grid points: the row windows sit at block row `t`, the weights and the bias at
    block (0, 0). -/
theorem idx_facts1 : ∀ t : Fin cfg1.N, win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = t.val ∧ win1_5.index t (1 : Fin 2) = 0 :=
  (by decide +kernel : ∀ t : Fin grid1.N, _)

/-- Every block row is some point's. -/
theorem idx_onto1 : ∀ q : Fin 10, ∃ t : Fin cfg1.N, win1_5.index t = ![q.val, 0] :=
  (by decide +kernel : ∀ q : Fin 10, ∃ t : Fin grid1.N, win1_5.index t = ![q.val, 0])

/-- What point `t` writes back is block `t` of the dense layer of the whole arrays: entry (r, o) of the block is entry
    (5000 t + r, o) of the array, which reads row 5000 t + r of the two row operands — row r of their blocks at `t` —,
    column o of the weights and entry o of the bias. -/
theorem flushed1 (c : Dev nD) (t : Fin cfg1.N) :
    (dat1 (F := Ideal) V c).flushed 5 t = ((cfg1.win 5).blk t).view.read (Elt Ideal) (G1 V c) := by
  show (cfg1.win 5).cut (grid1.coords t) ((dat1 (F := Ideal) V c).after 5 t) = _
  rw [after1_5]
  unfold out1_5
  rw [View.canon_unit_zero hz]
  simp only [View.ld_unit_zero (S := S5000x256) hz, View.ld_unit_zero (S := S256x128) hz, View.ld_unit_zero (S := S1x128) hz]
  obtain ⟨e00, e01, e10, e11, e20, e21, e30, e31, e40, e41, e50, e51⟩ := idx_facts1 t
  funext j
  refine (pay1 (iblk1 V c 0 t) (iblk1 V c 1 t) (iblk1 V c 2 t) (iblk1 V c 4 t) (iblk1 V c 3 t) j).trans ?_
  show _ = Cert.LibDense.relu (n := 50000) (K := 256) (d := 128) (V c main_v39) (V c main_v26) (V c main_arg6) (V c main_arg8)
    (fun q => V c main_v40 (ix2 ⟨0, Nat.one_pos⟩ (q 0))) (((cfg1.win 5).blk t).view.emb j)
  have hj0 : (j 0).val < 5000 := (j 0).isLt
  have hj1 : (j 1).val < 128 := (j 1).isLt
  refine Cert.LibDense.relu_congr _ _ _ _ _ _ _ _ _ _ j _ (fun k => ?_) (fun k => ?_) (fun k => ?_) (fun k => ?_) ?_
  · show V c main_v39 (((cfg1.win 0).blk t).view.emb (ix2 (j 0) k)) = V c main_v39 (ix2 ((((cfg1.win 5).blk t).view.emb j) 0) k)
    refine congrArg _ (funext fun a => Fin.ext ?_)
    match a with
    | ⟨0, _⟩ => show win1_0.index t (0 : Fin 2) * 5000 + 1 * (j 0).val = win1_5.index t (0 : Fin 2) * 5000 + 1 * (j 0).val; omega
    | ⟨1, _⟩ => show win1_0.index t (1 : Fin 2) * 256 + 1 * k.val = k.val; omega
  · show V c main_v26 (((cfg1.win 1).blk t).view.emb (ix2 (j 0) k)) = V c main_v26 (ix2 ((((cfg1.win 5).blk t).view.emb j) 0) k)
    refine congrArg _ (funext fun a => Fin.ext ?_)
    match a with
    | ⟨0, _⟩ => show win1_1.index t (0 : Fin 2) * 5000 + 1 * (j 0).val = win1_5.index t (0 : Fin 2) * 5000 + 1 * (j 0).val; omega
    | ⟨1, _⟩ => show win1_1.index t (1 : Fin 2) * 256 + 1 * k.val = k.val; omega
  · show V c main_arg6 (((cfg1.win 2).blk t).view.emb (ix2 k (j 1))) = V c main_arg6 (ix2 k ((((cfg1.win 5).blk t).view.emb j) 1))
    refine congrArg _ (funext fun a => Fin.ext ?_)
    match a with
    | ⟨0, _⟩ => show win1_2.index t (0 : Fin 2) * 256 + 1 * k.val = k.val; omega
    | ⟨1, _⟩ => show win1_2.index t (1 : Fin 2) * 128 + 1 * (j 1).val = win1_5.index t (1 : Fin 2) * 128 + 1 * (j 1).val; omega
  · show V c main_arg8 (((cfg1.win 4).blk t).view.emb (ix2 k (j 1))) = V c main_arg8 (ix2 k ((((cfg1.win 5).blk t).view.emb j) 1))
    refine congrArg _ (funext fun a => Fin.ext ?_)
    match a with
    | ⟨0, _⟩ => show win1_4.index t (0 : Fin 2) * 256 + 1 * k.val = k.val; omega
    | ⟨1, _⟩ => show win1_4.index t (1 : Fin 2) * 128 + 1 * (j 1).val = win1_5.index t (1 : Fin 2) * 128 + 1 * (j 1).val; omega
  · show V c main_v40 (((cfg1.win 3).blk t).view.emb (ix2 ⟨0, Nat.one_pos⟩ (j 1))) = V c main_v40 (ix2 ⟨0, Nat.one_pos⟩ ((((cfg1.win 5).blk t).view.emb j) 1))
    refine congrArg _ (funext fun a => Fin.ext ?_)
    match a with
    | ⟨0, _⟩ => show win1_3.index t (0 : Fin 2) * 1 + 1 * 0 = 0; omega
    | ⟨1, _⟩ => show win1_3.index t (1 : Fin 2) * 128 + 1 * (j 1).val = win1_5.index t (1 : Fin 2) * 128 + 1 * (j 1).val; omega

/-- An index of the output array lies in point `t`'s block iff each coordinate lies in the block's range. -/
theorem mem_blk1 (t : Fin cfg1.N) (i : S50000x128.Idx) :
    i ∈ ((cfg1.win 5).blk t).view.set ↔ ∀ a : Fin 2, win1_5.index t a * S5000x128.size a ≤ (i a).val ∧ (i a).val < win1_5.index t a * S5000x128.size a + S5000x128.size a := by
  show i ∈ ((View.whole main_v41).slice (win1_5.rect t)).set ↔ _
  rw [View.set_slice_whole, Rect.mem_set_unit]
  exact Iff.rfl

/-- The ten blocks of 5000 rows tile the 50000 rows: row `r` lies in the block of point `r / 5000`. -/
theorem cover1 (i : S50000x128.Idx) :
    ∃ t : Fin cfg1.N, (cfg1.win 5).flush t = true ∧ i ∈ ((cfg1.win 5).blk t).view.set := by
  have hi0 : (i 0).val < 50000 := (i 0).isLt
  have hi1 : (i 1).val < 128 := (i 1).isLt
  obtain ⟨t, ht⟩ := idx_onto1 ⟨(i 0).val / 5000, by omega⟩
  have q0 : win1_5.index t (0 : Fin 2) = (i 0).val / 5000 := congrFun ht 0
  have q1 : win1_5.index t (1 : Fin 2) = 0 := congrFun ht 1
  refine ⟨t, flush1_5 t, ?_⟩
  rw [mem_blk1]
  intro a
  match a with
  | ⟨0, _⟩ => show win1_5.index t (0 : Fin 2) * 5000 ≤ (i 0).val ∧ (i 0).val < win1_5.index t (0 : Fin 2) * 5000 + 5000; omega
  | ⟨1, _⟩ => show win1_5.index t (1 : Fin 2) * 128 ≤ (i 1).val ∧ (i 1).val < win1_5.index t (1 : Fin 2) * 128 + 128; omega

/-- The region's output array after its ten write-backs is the dense layer of the arrays it was entered with. -/
theorem value1 (c : Dev nD) : (dat1 (F := Ideal) V c).arrAt 5 cfg1.N = G1 V c :=
  (dat1 (F := Ideal) V c).arrAt_eq_of_cover 5 (G1 V c) (fun t _ => flushed1 V c t) cover1

/-! ## Region 2: rows of 128 features to rows of 64 -/

theorem dot2_plain : dot_S5000x128_S128x64_S5000x64_1_0_0_1_n_n = DotDims.plain 5000 128 64 := rfl

/-- The body's one store at an entry (r, o) of the block: the larger of zero and
    `(∑ₖ a (r, k) · wl (k, o) + ∑ₖ x (r, k) · wr (k, o)) + b (0, o)`. The changes of float format are the identity on the
    extended reals, and each matrix product into the zero accumulator is the row-by-column sum. -/
theorem pay2 (x0 x1 : Vec Ideal S5000x128 .f32) (x2 x4 : Vec Ideal S128x64 .f32) (x3 : Vec Ideal S1x64 .f32) (j : S5000x64.Idx) :
    k2_pay1 (F := Ideal) x0 x1 x2 x4 x3 j
      = Cert.LibDense.relu (n := 5000) (K := 128) (d := 64) x0 x1 x2 x4 (fun q => x3 (ix2 ⟨0, Nat.one_pos⟩ (q 0))) j := by
  unfold k2_pay1 Cert.LibDense.relu Cert.LibDense.affine
  dsimp only
  refine congrArg₂ max (congrArg₂ (· + ·) (congrArg₂ (· + ·) ?_ ?_) ?_) rfl
  · rw [shapeCast_self, dot2_plain]
    exact Cert.LibDense.matmul_plain (M := 5000) (K := 128) (N := 64) _ _ j
  · rw [shapeCast_self, dot2_plain]
    exact Cert.LibDense.matmul_plain (M := 5000) (K := 128) (N := 64) _ _ j
  · rw [shapeCast_self]
    refine broadcastTo_apply x3 _ j (ix2 ⟨0, Nat.one_pos⟩ (j 1)) (fun a => ?_)
    match a with
    | ⟨0, _⟩ => exact (if_pos rfl).symm
    | ⟨1, _⟩ =>
      show (j 1).val = if (64 : ℕ) = 1 then 0 else (j 1).val
      rw [if_neg (by decide)]

/-- The whole-array function the region's output ends at: the dense layer of the arrays as the region finds them. -/
abbrev G2 (c : Dev nD) : S50000x64.Idx → EReal :=
  Cert.LibDense.relu (n := 50000) (K := 128) (d := 64) (V c main_v54) (V c main_v41) (V c main_arg9) (V c main_arg11)
    (fun q => V c main_v55 (ix2 ⟨0, Nat.one_pos⟩ (q 0)))

/-- The printed index maps over the ten grid points: the row windows sit at block row `t`, the weights and the bias at
    block (0, 0). -/
theorem idx_facts2 : ∀ t : Fin cfg2.N, win2_0.index t (0 : Fin 2) = t.val ∧ win2_0.index t (1 : Fin 2) = 0
    ∧ win2_1.index t (0 : Fin 2) = t.val ∧ win2_1.index t (1 : Fin 2) = 0
    ∧ win2_2.index t (0 : Fin 2) = 0 ∧ win2_2.index t (1 : Fin 2) = 0
    ∧ win2_3.index t (0 : Fin 2) = 0 ∧ win2_3.index t (1 : Fin 2) = 0
    ∧ win2_4.index t (0 : Fin 2) = 0 ∧ win2_4.index t (1 : Fin 2) = 0
    ∧ win2_5.index t (0 : Fin 2) = t.val ∧ win2_5.index t (1 : Fin 2) = 0 :=
  (by decide +kernel : ∀ t : Fin grid2.N, _)

/-- Every block row is some point's. -/
theorem idx_onto2 : ∀ q : Fin 10, ∃ t : Fin cfg2.N, win2_5.index t = ![q.val, 0] :=
  (by decide +kernel : ∀ q : Fin 10, ∃ t : Fin grid2.N, win2_5.index t = ![q.val, 0])

/-- What point `t` writes back is block `t` of the dense layer of the whole arrays: entry (r, o) of the block is entry
    (5000 t + r, o) of the array, which reads row 5000 t + r of the two row operands — row r of their blocks at `t` —,
    column o of the weights and entry o of the bias. -/
theorem flushed2 (c : Dev nD) (t : Fin cfg2.N) :
    (dat2 (F := Ideal) V c).flushed 5 t = ((cfg2.win 5).blk t).view.read (Elt Ideal) (G2 V c) := by
  show (cfg2.win 5).cut (grid2.coords t) ((dat2 (F := Ideal) V c).after 5 t) = _
  rw [after2_5]
  unfold out2_5
  rw [View.canon_unit_zero hz]
  simp only [View.ld_unit_zero (S := S5000x128) hz, View.ld_unit_zero (S := S128x64) hz, View.ld_unit_zero (S := S1x64) hz]
  obtain ⟨e00, e01, e10, e11, e20, e21, e30, e31, e40, e41, e50, e51⟩ := idx_facts2 t
  funext j
  refine (pay2 (iblk2 V c 0 t) (iblk2 V c 1 t) (iblk2 V c 2 t) (iblk2 V c 4 t) (iblk2 V c 3 t) j).trans ?_
  show _ = Cert.LibDense.relu (n := 50000) (K := 128) (d := 64) (V c main_v54) (V c main_v41) (V c main_arg9) (V c main_arg11)
    (fun q => V c main_v55 (ix2 ⟨0, Nat.one_pos⟩ (q 0))) (((cfg2.win 5).blk t).view.emb j)
  have hj0 : (j 0).val < 5000 := (j 0).isLt
  have hj1 : (j 1).val < 64 := (j 1).isLt
  refine Cert.LibDense.relu_congr _ _ _ _ _ _ _ _ _ _ j _ (fun k => ?_) (fun k => ?_) (fun k => ?_) (fun k => ?_) ?_
  · show V c main_v54 (((cfg2.win 0).blk t).view.emb (ix2 (j 0) k)) = V c main_v54 (ix2 ((((cfg2.win 5).blk t).view.emb j) 0) k)
    refine congrArg _ (funext fun a => Fin.ext ?_)
    match a with
    | ⟨0, _⟩ => show win2_0.index t (0 : Fin 2) * 5000 + 1 * (j 0).val = win2_5.index t (0 : Fin 2) * 5000 + 1 * (j 0).val; omega
    | ⟨1, _⟩ => show win2_0.index t (1 : Fin 2) * 128 + 1 * k.val = k.val; omega
  · show V c main_v41 (((cfg2.win 1).blk t).view.emb (ix2 (j 0) k)) = V c main_v41 (ix2 ((((cfg2.win 5).blk t).view.emb j) 0) k)
    refine congrArg _ (funext fun a => Fin.ext ?_)
    match a with
    | ⟨0, _⟩ => show win2_1.index t (0 : Fin 2) * 5000 + 1 * (j 0).val = win2_5.index t (0 : Fin 2) * 5000 + 1 * (j 0).val; omega
    | ⟨1, _⟩ => show win2_1.index t (1 : Fin 2) * 128 + 1 * k.val = k.val; omega
  · show V c main_arg9 (((cfg2.win 2).blk t).view.emb (ix2 k (j 1))) = V c main_arg9 (ix2 k ((((cfg2.win 5).blk t).view.emb j) 1))
    refine congrArg _ (funext fun a => Fin.ext ?_)
    match a with
    | ⟨0, _⟩ => show win2_2.index t (0 : Fin 2) * 128 + 1 * k.val = k.val; omega
    | ⟨1, _⟩ => show win2_2.index t (1 : Fin 2) * 64 + 1 * (j 1).val = win2_5.index t (1 : Fin 2) * 64 + 1 * (j 1).val; omega
  · show V c main_arg11 (((cfg2.win 4).blk t).view.emb (ix2 k (j 1))) = V c main_arg11 (ix2 k ((((cfg2.win 5).blk t).view.emb j) 1))
    refine congrArg _ (funext fun a => Fin.ext ?_)
    match a with
    | ⟨0, _⟩ => show win2_4.index t (0 : Fin 2) * 128 + 1 * k.val = k.val; omega
    | ⟨1, _⟩ => show win2_4.index t (1 : Fin 2) * 64 + 1 * (j 1).val = win2_5.index t (1 : Fin 2) * 64 + 1 * (j 1).val; omega
  · show V c main_v55 (((cfg2.win 3).blk t).view.emb (ix2 ⟨0, Nat.one_pos⟩ (j 1))) = V c main_v55 (ix2 ⟨0, Nat.one_pos⟩ ((((cfg2.win 5).blk t).view.emb j) 1))
    refine congrArg _ (funext fun a => Fin.ext ?_)
    match a with
    | ⟨0, _⟩ => show win2_3.index t (0 : Fin 2) * 1 + 1 * 0 = 0; omega
    | ⟨1, _⟩ => show win2_3.index t (1 : Fin 2) * 64 + 1 * (j 1).val = win2_5.index t (1 : Fin 2) * 64 + 1 * (j 1).val; omega

/-- An index of the output array lies in point `t`'s block iff each coordinate lies in the block's range. -/
theorem mem_blk2 (t : Fin cfg2.N) (i : S50000x64.Idx) :
    i ∈ ((cfg2.win 5).blk t).view.set ↔ ∀ a : Fin 2, win2_5.index t a * S5000x64.size a ≤ (i a).val ∧ (i a).val < win2_5.index t a * S5000x64.size a + S5000x64.size a := by
  show i ∈ ((View.whole main_v56).slice (win2_5.rect t)).set ↔ _
  rw [View.set_slice_whole, Rect.mem_set_unit]
  exact Iff.rfl

/-- The ten blocks of 5000 rows tile the 50000 rows: row `r` lies in the block of point `r / 5000`. -/
theorem cover2 (i : S50000x64.Idx) :
    ∃ t : Fin cfg2.N, (cfg2.win 5).flush t = true ∧ i ∈ ((cfg2.win 5).blk t).view.set := by
  have hi0 : (i 0).val < 50000 := (i 0).isLt
  have hi1 : (i 1).val < 64 := (i 1).isLt
  obtain ⟨t, ht⟩ := idx_onto2 ⟨(i 0).val / 5000, by omega⟩
  have q0 : win2_5.index t (0 : Fin 2) = (i 0).val / 5000 := congrFun ht 0
  have q1 : win2_5.index t (1 : Fin 2) = 0 := congrFun ht 1
  refine ⟨t, flush2_5 t, ?_⟩
  rw [mem_blk2]
  intro a
  match a with
  | ⟨0, _⟩ => show win2_5.index t (0 : Fin 2) * 5000 ≤ (i 0).val ∧ (i 0).val < win2_5.index t (0 : Fin 2) * 5000 + 5000; omega
  | ⟨1, _⟩ => show win2_5.index t (1 : Fin 2) * 64 ≤ (i 1).val ∧ (i 1).val < win2_5.index t (1 : Fin 2) * 64 + 64; omega

/-- The region's output array after its ten write-backs is the dense layer of the arrays it was entered with. -/
theorem value2 (c : Dev nD) : (dat2 (F := Ideal) V c).arrAt 5 cfg2.N = G2 V c :=
  (dat2 (F := Ideal) V c).arrAt_eq_of_cover 5 (G2 V c) (fun t _ => flushed2 V c t) cover2

end Cert.KernelIdeal.Dense

end
-- ==== Proof.RefLayer.lean ====
/-
  Each of the reference's three graph-convolution layers, read at an entry, is the dense layer
  `max ((mean · Wl + x · Wr) + b, 0)` of its operands: the two dot_generals are row-by-column sums, the bias vector
  broadcast to a row and down the rows is its entry at the column, and the rectifier is the maximum with the zero word.
-/
import proofs.«133121_j40613210751535_1_alg».proof.Proof.Gen.ReferenceIdeal.Read
import proofs.«133121_j40613210751535_1_alg».proof.Proof.LibDense

noncomputable section

namespace Cert.ReferenceIdeal.Layers

open Cert.ReferenceIdeal Cert.ReferenceIdeal.Gen Idealize.ShloMosaic Idealize.ShloMosaic.TcCoe Idealize.ShloMosaic.ValueIdx

/-- Layer 1: the reference's `max ((mean · Wl + b) + x · Wr, 0)` is the dense layer of the same operands; the bias
    moves past the second product because a sum on the extended reals may be regrouped. -/
theorem layer1 (x0 : (⟨S50000x128, .f32⟩ : BufTy).Contents (Elt Ideal)) (x1 : (⟨S2x600000, .i32⟩ : BufTy).Contents (Elt Ideal)) (x3 : (⟨S128x256, .f32⟩ : BufTy).Contents (Elt Ideal)) (x4 : (⟨S256, .f32⟩ : BufTy).Contents (Elt Ideal)) (x5 : (⟨S128x256, .f32⟩ : BufTy).Contents (Elt Ideal)) :
    Read.val_main_v31 (F := Ideal) x0 x1 x3 x4 x5
      = Cert.LibDense.relu (n := 50000) (K := 128) (d := 256) (Read.val_main_v24 (F := Ideal) x0 x1) (x0) x3 x5 x4 := by
  funext i
  rw [Read.val_main_v31_apply, Read.val_main_v30_apply, Read.val_main_v28_apply, Read.val_main_v25_apply, Read.val_main_v27_apply, Read.val_main_v26_apply,
    Read.val_main_v29_apply, Read.val_main_call0_v0_apply, Read.val_main_call0_cst_apply]
  unfold Cert.LibDense.relu Cert.LibDense.affine Cert.LibDense.prod
  refine congrArg₂ max ?_ rfl
  refine (add_right_comm _ _ _).trans ?_
  refine congrArg₂ (· + ·) (congrArg₂ (· + ·) (Finset.sum_congr rfl fun k _ => ?_) (Finset.sum_congr rfl fun k _ => ?_)) ?_
  · refine congrArg₂ (· * ·) (congrArg _ (funext fun a => ?_)) (congrArg _ (funext fun a => ?_))
    · match a with
      | ⟨0, _⟩ => rfl
      | ⟨1, _⟩ => rfl
    · match a with
      | ⟨0, _⟩ => rfl
      | ⟨1, _⟩ => rfl
  · refine congrArg₂ (· * ·) (congrArg _ (funext fun a => ?_)) (congrArg _ (funext fun a => ?_))
    · match a with
      | ⟨0, _⟩ => rfl
      | ⟨1, _⟩ => rfl
    · match a with
      | ⟨0, _⟩ => rfl
      | ⟨1, _⟩ => rfl
  · refine congrArg _ (funext fun a => ?_)
    match a with
    | ⟨0, _⟩ => rfl

/-- Layer 2: the reference's `max ((mean · Wl + b) + x · Wr, 0)` is the dense layer of the same operands; the bias
    moves past the second product because a sum on the extended reals may be regrouped. -/
theorem layer2 (x0 : (⟨S50000x128, .f32⟩ : BufTy).Contents (Elt Ideal)) (x1 : (⟨S2x600000, .i32⟩ : BufTy).Contents (Elt Ideal)) (x3 : (⟨S128x256, .f32⟩ : BufTy).Contents (Elt Ideal)) (x4 : (⟨S256, .f32⟩ : BufTy).Contents (Elt Ideal)) (x5 : (⟨S128x256, .f32⟩ : BufTy).Contents (Elt Ideal)) (x6 : (⟨S256x128, .f32⟩ : BufTy).Contents (Elt Ideal)) (x7 : (⟨S128, .f32⟩ : BufTy).Contents (Elt Ideal)) (x8 : (⟨S256x128, .f32⟩ : BufTy).Contents (Elt Ideal)) :
    Read.val_main_v51 (F := Ideal) x0 x1 x3 x4 x5 x6 x7 x8
      = Cert.LibDense.relu (n := 50000) (K := 256) (d := 128) (Read.val_main_v44 (F := Ideal) x0 x1 x3 x4 x5) (Read.val_main_v31 (F := Ideal) x0 x1 x3 x4 x5) x6 x8 x7 := by
  funext i
  rw [Read.val_main_v51_apply, Read.val_main_v50_apply, Read.val_main_v48_apply, Read.val_main_v45_apply, Read.val_main_v47_apply, Read.val_main_v46_apply,
    Read.val_main_v49_apply, Read.val_main_call1_v0_apply, Read.val_main_call1_cst_apply]
  unfold Cert.LibDense.relu Cert.LibDense.affine Cert.LibDense.prod
  refine congrArg₂ max ?_ rfl
  refine (add_right_comm _ _ _).trans ?_
  refine congrArg₂ (· + ·) (congrArg₂ (· + ·) (Finset.sum_congr rfl fun k _ => ?_) (Finset.sum_congr rfl fun k _ => ?_)) ?_
  · refine congrArg₂ (· * ·) (congrArg _ (funext fun a => ?_)) (congrArg _ (funext fun a => ?_))
    · match a with
      | ⟨0, _⟩ => rfl
      | ⟨1, _⟩ => rfl
    · match a with
      | ⟨0, _⟩ => rfl
      | ⟨1, _⟩ => rfl
  · refine congrArg₂ (· * ·) (congrArg _ (funext fun a => ?_)) (congrArg _ (funext fun a => ?_))
    · match a with
      | ⟨0, _⟩ => rfl
      | ⟨1, _⟩ => rfl
    · match a with
      | ⟨0, _⟩ => rfl
      | ⟨1, _⟩ => rfl
  · refine congrArg _ (funext fun a => ?_)
    match a with
    | ⟨0, _⟩ => rfl

/-- Layer 3: the reference's `max ((mean · Wl + b) + x · Wr, 0)` is the dense layer of the same operands; the bias
    moves past the second product because a sum on the extended reals may be regrouped. -/
theorem layer3 (x0 : (⟨S50000x128, .f32⟩ : BufTy).Contents (Elt Ideal)) (x1 : (⟨S2x600000, .i32⟩ : BufTy).Contents (Elt Ideal)) (x3 : (⟨S128x256, .f32⟩ : BufTy).Contents (Elt Ideal)) (x4 : (⟨S256, .f32⟩ : BufTy).Contents (Elt Ideal)) (x5 : (⟨S128x256, .f32⟩ : BufTy).Contents (Elt Ideal)) (x6 : (⟨S256x128, .f32⟩ : BufTy).Contents (Elt Ideal)) (x7 : (⟨S128, .f32⟩ : BufTy).Contents (Elt Ideal)) (x8 : (⟨S256x128, .f32⟩ : BufTy).Contents (Elt Ideal)) (x9 : (⟨S128x64, .f32⟩ : BufTy).Contents (Elt Ideal)) (x10 : (⟨S64, .f32⟩ : BufTy).Contents (Elt Ideal)) (x11 : (⟨S128x64, .f32⟩ : BufTy).Contents (Elt Ideal)) :
    Read.val_main_v71 (F := Ideal) x0 x1 x3 x4 x5 x6 x7 x8 x9 x10 x11
      = Cert.LibDense.relu (n := 50000) (K := 128) (d := 64) (Read.val_main_v64 (F := Ideal) x0 x1 x3 x4 x5 x6 x7 x8) (Read.val_main_v51 (F := Ideal) x0 x1 x3 x4 x5 x6 x7 x8) x9 x11 x10 := by
  funext i
  rw [Read.val_main_v71_apply, Read.val_main_v70_apply, Read.val_main_v68_apply, Read.val_main_v65_apply, Read.val_main_v67_apply, Read.val_main_v66_apply,
    Read.val_main_v69_apply, Read.val_main_call2_v0_apply, Read.val_main_call2_cst_apply]
  unfold Cert.LibDense.relu Cert.LibDense.affine Cert.LibDense.prod
  refine congrArg₂ max ?_ rfl
  refine (add_right_comm _ _ _).trans ?_
  refine congrArg₂ (· + ·) (congrArg₂ (· + ·) (Finset.sum_congr rfl fun k _ => ?_) (Finset.sum_congr rfl fun k _ => ?_)) ?_
  · refine congrArg₂ (· * ·) (congrArg _ (funext fun a => ?_)) (congrArg _ (funext fun a => ?_))
    · match a with
      | ⟨0, _⟩ => rfl
      | ⟨1, _⟩ => rfl
    · match a with
      | ⟨0, _⟩ => rfl
      | ⟨1, _⟩ => rfl
  · refine congrArg₂ (· * ·) (congrArg _ (funext fun a => ?_)) (congrArg _ (funext fun a => ?_))
    · match a with
      | ⟨0, _⟩ => rfl
      | ⟨1, _⟩ => rfl
    · match a with
      | ⟨0, _⟩ => rfl
      | ⟨1, _⟩ => rfl
  · refine congrArg _ (funext fun a => ?_)
    match a with
    | ⟨0, _⟩ => rfl

end Cert.ReferenceIdeal.Layers

end
-- ==== Proof.Stages.lean ====
/-
  The contents of the idealized kernel's buffers at each boundary of its run, as the reference's own stages of the
  launch arrays.

  Outside its three regions the kernel's program applies the very host operations the reference applies: the edge
  list is split into sources and destinations, the in-degrees are counted and inverted, each layer's neighbourhood
  means are a gather along the sources, a scatter-add along the destinations and a product with the inverse degrees,
  and after the last layer the graph means, the linear head and the row-wise log-softmax follow. So once a region's
  output is known to be the reference's layer of the same operands, every later buffer is the reference's stage by
  applying the same operations to equal operands.
-/
import proofs.«133121_j40613210751535_1_alg».proof.Proof.KRun
import proofs.«133121_j40613210751535_1_alg».proof.Proof.Region
import proofs.«133121_j40613210751535_1_alg».proof.Proof.RefLayer
import Idealize.ShloMosaic.Lib.StableHlo.Run
import Idealize.ShloMosaic.Lib.Pipeline.Value

set_option maxRecDepth 16384

noncomputable section

namespace Cert.KernelIdeal.Stages

open Cert.KernelIdeal Cert.KernelIdeal.Gen
open Idealize.ShloMosaic Idealize.ShloMosaic.TcCoe Idealize.ShloMosaic.ValueIdx Idealize.SL.Sem Idealize.ShloMosaic.StableHlo

variable (m : (ℓ : Loc nD τ sig) → Buf (Elt Ideal) ℓ) (ρ : Dev nD → PrngReg) (c : Dev nD)

/-- A stretch of host operations leaves a buffer none of them writes as it found it. -/
macro "skip_ops " ops:ident : tactic => `(tactic| (
  refine StableHlo.after_of_forall_not_mem _ _ (List.forall_iff_forall_mem.mp ?_)
  simp only [$ops:ident, List.flatten_cons, List.flatten_nil, List.append_nil, List.cons_append, List.nil_append, List.Forall,
    StableHlo.nullary_writes, StableHlo.unary_writes, StableHlo.binary_writes, StableHlo.ternary_writes, StableHlo.quaternary_writes,
    StableHlo.reshape_writes, StableHlo.binaryIndexed_writes, Finset.mem_singleton]
  repeat' apply And.intro
  all_goals exact StableHlo.devRef_ne_of_ne (by decide)))

/-! ## Before the first region -/

theorem W1_v1 : W1 m ρ c (Proc.devRef .tc main_v1) = Cert.ReferenceIdeal.Read.val_main_v1 (F := Ideal) (m ((c : Thread nD τ).loc main_arg1)) := by
  show StableHlo.after hostOps0 _ (Proc.devRef .tc main_v1) = _
  after_results_simp
  rfl

theorem W1_v3 : W1 m ρ c (Proc.devRef .tc main_v3) = Cert.ReferenceIdeal.Read.val_main_v3 (F := Ideal) (m ((c : Thread nD τ).loc main_arg1)) := by
  show StableHlo.after hostOps0 _ (Proc.devRef .tc main_v3) = _
  after_results_simp
  rfl

theorem W1_v11 : W1 m ρ c (Proc.devRef .tc main_v11) = Cert.ReferenceIdeal.Read.val_main_v11 (F := Ideal) (m ((c : Thread nD τ).loc main_arg1)) := by
  show StableHlo.after hostOps0 _ (Proc.devRef .tc main_v11) = _
  after_results_simp
  rfl

theorem W1_v24 : W1 m ρ c (Proc.devRef .tc main_v24) = Cert.ReferenceIdeal.Read.val_main_v24 (F := Ideal) (m ((c : Thread nD τ).loc main_arg0)) (m ((c : Thread nD τ).loc main_arg1)) := by
  show StableHlo.after hostOps0 _ (Proc.devRef .tc main_v24) = _
  after_results_simp
  rfl

theorem W1_v25 : W1 m ρ c (Proc.devRef .tc main_v25) = shapeCast S1x256 (m ((c : Thread nD τ).loc main_arg4)) shapeCasts_S256_S1x256 := by
  show StableHlo.after hostOps0 _ (Proc.devRef .tc main_v25) = _
  after_results_simp
  rfl

theorem W1_arg0 : W1 m ρ c (Proc.devRef .tc main_arg0) = (m ((c : Thread nD τ).loc main_arg0)) :=
  calc W1 m ρ c (Proc.devRef .tc main_arg0)
    _ = W0 m ρ c (Proc.devRef .tc main_arg0) := by skip_ops hostOps0
    _ = (m ((c : Thread nD τ).loc main_arg0)) := rfl

theorem W1_arg3 : W1 m ρ c (Proc.devRef .tc main_arg3) = (m ((c : Thread nD τ).loc main_arg3)) :=
  calc W1 m ρ c (Proc.devRef .tc main_arg3)
    _ = W0 m ρ c (Proc.devRef .tc main_arg3) := by skip_ops hostOps0
    _ = (m ((c : Thread nD τ).loc main_arg3)) := rfl

theorem W1_arg5 : W1 m ρ c (Proc.devRef .tc main_arg5) = (m ((c : Thread nD τ).loc main_arg5)) :=
  calc W1 m ρ c (Proc.devRef .tc main_arg5)
    _ = W0 m ρ c (Proc.devRef .tc main_arg5) := by skip_ops hostOps0
    _ = (m ((c : Thread nD τ).loc main_arg5)) := rfl

/-- The bias vector cast to a one-row matrix, read along that row, is the vector. -/
theorem bias_row0 (b : S256.Idx → EReal) :
    (fun q : (⟨1, ![256]⟩ : Shape).Idx => shapeCast S1x256 b shapeCasts_S256_S1x256 (ix2 ⟨0, Nat.one_pos⟩ (q 0))) = b := by
  funext q
  refine (shapeCast_addUnit_apply ![256] b shapeCasts_S256_S1x256 _).trans (congrArg b (funext fun a => ?_))
  match a with
  | ⟨0, _⟩ => rfl

/-- The bias vector cast to a one-row matrix, read along that row, is the vector. -/
theorem bias_row1 (b : S128.Idx → EReal) :
    (fun q : (⟨1, ![128]⟩ : Shape).Idx => shapeCast S1x128 b shapeCasts_S128_S1x128 (ix2 ⟨0, Nat.one_pos⟩ (q 0))) = b := by
  funext q
  refine (shapeCast_addUnit_apply ![128] b shapeCasts_S128_S1x128 _).trans (congrArg b (funext fun a => ?_))
  match a with
  | ⟨0, _⟩ => rfl

/-- The bias vector cast to a one-row matrix, read along that row, is the vector. -/
theorem bias_row2 (b : S64.Idx → EReal) :
    (fun q : (⟨1, ![64]⟩ : Shape).Idx => shapeCast S1x64 b shapeCasts_S64_S1x64 (ix2 ⟨0, Nat.one_pos⟩ (q 0))) = b := by
  funext q
  refine (shapeCast_addUnit_apply ![64] b shapeCasts_S64_S1x64 _).trans (congrArg b (funext fun a => ?_))
  match a with
  | ⟨0, _⟩ => rfl

/-! ## The first region, and the stretch after it -/

/-- Region 0's output is the reference's layer 1: the region is entered with the reference's neighbourhood means,
    its node features, and the launch weights and bias. -/
theorem W2_v26 : W2 m ρ c (Proc.devRef .tc main_v26) = Cert.ReferenceIdeal.Read.val_main_v31 (F := Ideal) (m ((c : Thread nD τ).loc main_arg0)) (m ((c : Thread nD τ).loc main_arg1)) (m ((c : Thread nD τ).loc main_arg3)) (m ((c : Thread nD τ).loc main_arg4)) (m ((c : Thread nD τ).loc main_arg5)) := by
  refine (W2_arr m ρ c 5).trans ((Cert.KernelIdeal.Dense.value0 (V1 m ρ) c).trans ?_)
  have e : (fun q : (⟨1, ![256]⟩ : Shape).Idx => W1 m ρ c (Proc.devRef .tc main_v25) (ix2 ⟨0, Nat.one_pos⟩ (q 0))) = (m ((c : Thread nD τ).loc main_arg4)) := by
    rw [W1_v25 m ρ c]
    exact bias_row0 _
  show Cert.LibDense.relu (n := 50000) (K := 128) (d := 256) (W1 m ρ c (Proc.devRef .tc main_v24)) (W1 m ρ c (Proc.devRef .tc main_arg0))
    (W1 m ρ c (Proc.devRef .tc main_arg3)) (W1 m ρ c (Proc.devRef .tc main_arg5))
    (fun q : (⟨1, ![256]⟩ : Shape).Idx => W1 m ρ c (Proc.devRef .tc main_v25) (ix2 ⟨0, Nat.one_pos⟩ (q 0))) = _
  rw [e, W1_v24 m ρ c, W1_arg0 m ρ c, W1_arg3 m ρ c, W1_arg5 m ρ c]
  exact (Cert.ReferenceIdeal.Layers.layer1 (m ((c : Thread nD τ).loc main_arg0)) (m ((c : Thread nD τ).loc main_arg1)) (m ((c : Thread nD τ).loc main_arg3)) (m ((c : Thread nD τ).loc main_arg4)) (m ((c : Thread nD τ).loc main_arg5))).symm

theorem W2_v1 : W2 m ρ c (Proc.devRef .tc main_v1) = Cert.ReferenceIdeal.Read.val_main_v1 (F := Ideal) (m ((c : Thread nD τ).loc main_arg1)) :=
  calc W2 m ρ c (Proc.devRef .tc main_v1)
    _ = W1 m ρ c (Proc.devRef .tc main_v1) := W2_of_ne m ρ c main_v1 (by decide)
    _ = Cert.ReferenceIdeal.Read.val_main_v1 (F := Ideal) (m ((c : Thread nD τ).loc main_arg1)) := W1_v1 m ρ c

theorem W2_v3 : W2 m ρ c (Proc.devRef .tc main_v3) = Cert.ReferenceIdeal.Read.val_main_v3 (F := Ideal) (m ((c : Thread nD τ).loc main_arg1)) :=
  calc W2 m ρ c (Proc.devRef .tc main_v3)
    _ = W1 m ρ c (Proc.devRef .tc main_v3) := W2_of_ne m ρ c main_v3 (by decide)
    _ = Cert.ReferenceIdeal.Read.val_main_v3 (F := Ideal) (m ((c : Thread nD τ).loc main_arg1)) := W1_v3 m ρ c

theorem W2_v11 : W2 m ρ c (Proc.devRef .tc main_v11) = Cert.ReferenceIdeal.Read.val_main_v11 (F := Ideal) (m ((c : Thread nD τ).loc main_arg1)) :=
  calc W2 m ρ c (Proc.devRef .tc main_v11)
    _ = W1 m ρ c (Proc.devRef .tc main_v11) := W2_of_ne m ρ c main_v11 (by decide)
    _ = Cert.ReferenceIdeal.Read.val_main_v11 (F := Ideal) (m ((c : Thread nD τ).loc main_arg1)) := W1_v11 m ρ c

theorem W2_arg7 : W2 m ρ c (Proc.devRef .tc main_arg7) = (m ((c : Thread nD τ).loc main_arg7)) :=
  calc W2 m ρ c (Proc.devRef .tc main_arg7)
    _ = W1 m ρ c (Proc.devRef .tc main_arg7) := W2_of_ne m ρ c main_arg7 (by decide)
    _ = W0 m ρ c (Proc.devRef .tc main_arg7) := by skip_ops hostOps0
    _ = (m ((c : Thread nD τ).loc main_arg7)) := rfl

theorem W3_v39 : W3 m ρ c (Proc.devRef .tc main_v39) = Cert.ReferenceIdeal.Read.val_main_v44 (F := Ideal) (m ((c : Thread nD τ).loc main_arg0)) (m ((c : Thread nD τ).loc main_arg1)) (m ((c : Thread nD τ).loc main_arg3)) (m ((c : Thread nD τ).loc main_arg4)) (m ((c : Thread nD τ).loc main_arg5)) := by
  show StableHlo.after hostOps1 _ (Proc.devRef .tc main_v39) = _
  after_results_simp
  rw [W2_v26 m ρ c, W2_v1 m ρ c, W2_v3 m ρ c, W2_v11 m ρ c]
  rfl

theorem W3_v40 : W3 m ρ c (Proc.devRef .tc main_v40) = shapeCast S1x128 (m ((c : Thread nD τ).loc main_arg7)) shapeCasts_S128_S1x128 := by
  show StableHlo.after hostOps1 _ (Proc.devRef .tc main_v40) = _
  after_results_simp
  rw [W2_arg7 m ρ c]
  rfl

theorem W3_v26 : W3 m ρ c (Proc.devRef .tc main_v26) = Cert.ReferenceIdeal.Read.val_main_v31 (F := Ideal) (m ((c : Thread nD τ).loc main_arg0)) (m ((c : Thread nD τ).loc main_arg1)) (m ((c : Thread nD τ).loc main_arg3)) (m ((c : Thread nD τ).loc main_arg4)) (m ((c : Thread nD τ).loc main_arg5)) :=
  calc W3 m ρ c (Proc.devRef .tc main_v26)
    _ = W2 m ρ c (Proc.devRef .tc main_v26) := by skip_ops hostOps1
    _ = Cert.ReferenceIdeal.Read.val_main_v31 (F := Ideal) (m ((c : Thread nD τ).loc main_arg0)) (m ((c : Thread nD τ).loc main_arg1)) (m ((c : Thread nD τ).loc main_arg3)) (m ((c : Thread nD τ).loc main_arg4)) (m ((c : Thread nD τ).loc main_arg5)) := W2_v26 m ρ c

theorem W3_arg6 : W3 m ρ c (Proc.devRef .tc main_arg6) = (m ((c : Thread nD τ).loc main_arg6)) :=
  calc W3 m ρ c (Proc.devRef .tc main_arg6)
    _ = W2 m ρ c (Proc.devRef .tc main_arg6) := by skip_ops hostOps1
    _ = W1 m ρ c (Proc.devRef .tc main_arg6) := W2_of_ne m ρ c main_arg6 (by decide)
    _ = W0 m ρ c (Proc.devRef .tc main_arg6) := by skip_ops hostOps0
    _ = (m ((c : Thread nD τ).loc main_arg6)) := rfl

theorem W3_arg8 : W3 m ρ c (Proc.devRef .tc main_arg8) = (m ((c : Thread nD τ).loc main_arg8)) :=
  calc W3 m ρ c (Proc.devRef .tc main_arg8)
    _ = W2 m ρ c (Proc.devRef .tc main_arg8) := by skip_ops hostOps1
    _ = W1 m ρ c (Proc.devRef .tc main_arg8) := W2_of_ne m ρ c main_arg8 (by decide)
    _ = W0 m ρ c (Proc.devRef .tc main_arg8) := by skip_ops hostOps0
    _ = (m ((c : Thread nD τ).loc main_arg8)) := rfl

/-! ## The second region, and the stretch after it -/

/-- Region 1's output is the reference's layer 2: the region is entered with the reference's neighbourhood means,
    its node features, and the launch weights and bias. -/
theorem W4_v41 : W4 m ρ c (Proc.devRef .tc main_v41) = Cert.ReferenceIdeal.Read.val_main_v51 (F := Ideal) (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) := by
  refine (W4_arr m ρ c 5).trans ((Cert.KernelIdeal.Dense.value1 (V3 m ρ) c).trans ?_)
  have e : (fun q : (⟨1, ![128]⟩ : Shape).Idx => W3 m ρ c (Proc.devRef .tc main_v40) (ix2 ⟨0, Nat.one_pos⟩ (q 0))) = (m ((c : Thread nD τ).loc main_arg7)) := by
    rw [W3_v40 m ρ c]
    exact bias_row1 _
  show Cert.LibDense.relu (n := 50000) (K := 256) (d := 128) (W3 m ρ c (Proc.devRef .tc main_v39)) (W3 m ρ c (Proc.devRef .tc main_v26))
    (W3 m ρ c (Proc.devRef .tc main_arg6)) (W3 m ρ c (Proc.devRef .tc main_arg8))
    (fun q : (⟨1, ![128]⟩ : Shape).Idx => W3 m ρ c (Proc.devRef .tc main_v40) (ix2 ⟨0, Nat.one_pos⟩ (q 0))) = _
  rw [e, W3_v39 m ρ c, W3_v26 m ρ c, W3_arg6 m ρ c, W3_arg8 m ρ c]
  exact (Cert.ReferenceIdeal.Layers.layer2 (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8))).symm

theorem W4_v1 : W4 m ρ c (Proc.devRef .tc main_v1) = Cert.ReferenceIdeal.Read.val_main_v1 (F := Ideal) (m ((c : Thread nD τ).loc main_arg1)) :=
  calc W4 m ρ c (Proc.devRef .tc main_v1)
    _ = W3 m ρ c (Proc.devRef .tc main_v1) := W4_of_ne m ρ c main_v1 (by decide)
    _ = W2 m ρ c (Proc.devRef .tc main_v1) := by skip_ops hostOps1
    _ = W1 m ρ c (Proc.devRef .tc main_v1) := W2_of_ne m ρ c main_v1 (by decide)
    _ = Cert.ReferenceIdeal.Read.val_main_v1 (F := Ideal) (m ((c : Thread nD τ).loc main_arg1)) := W1_v1 m ρ c

theorem W4_v3 : W4 m ρ c (Proc.devRef .tc main_v3) = Cert.ReferenceIdeal.Read.val_main_v3 (F := Ideal) (m ((c : Thread nD τ).loc main_arg1)) :=
  calc W4 m ρ c (Proc.devRef .tc main_v3)
    _ = W3 m ρ c (Proc.devRef .tc main_v3) := W4_of_ne m ρ c main_v3 (by decide)
    _ = W2 m ρ c (Proc.devRef .tc main_v3) := by skip_ops hostOps1
    _ = W1 m ρ c (Proc.devRef .tc main_v3) := W2_of_ne m ρ c main_v3 (by decide)
    _ = Cert.ReferenceIdeal.Read.val_main_v3 (F := Ideal) (m ((c : Thread nD τ).loc main_arg1)) := W1_v3 m ρ c

theorem W4_v11 : W4 m ρ c (Proc.devRef .tc main_v11) = Cert.ReferenceIdeal.Read.val_main_v11 (F := Ideal) (m ((c : Thread nD τ).loc main_arg1)) :=
  calc W4 m ρ c (Proc.devRef .tc main_v11)
    _ = W3 m ρ c (Proc.devRef .tc main_v11) := W4_of_ne m ρ c main_v11 (by decide)
    _ = W2 m ρ c (Proc.devRef .tc main_v11) := by skip_ops hostOps1
    _ = W1 m ρ c (Proc.devRef .tc main_v11) := W2_of_ne m ρ c main_v11 (by decide)
    _ = Cert.ReferenceIdeal.Read.val_main_v11 (F := Ideal) (m ((c : Thread nD τ).loc main_arg1)) := W1_v11 m ρ c

theorem W4_arg10 : W4 m ρ c (Proc.devRef .tc main_arg10) = (m ((c : Thread nD τ).loc main_arg10)) :=
  calc W4 m ρ c (Proc.devRef .tc main_arg10)
    _ = W3 m ρ c (Proc.devRef .tc main_arg10) := W4_of_ne m ρ c main_arg10 (by decide)
    _ = W2 m ρ c (Proc.devRef .tc main_arg10) := by skip_ops hostOps1
    _ = W1 m ρ c (Proc.devRef .tc main_arg10) := W2_of_ne m ρ c main_arg10 (by decide)
    _ = W0 m ρ c (Proc.devRef .tc main_arg10) := by skip_ops hostOps0
    _ = (m ((c : Thread nD τ).loc main_arg10)) := rfl

theorem W5_v54 : W5 m ρ c (Proc.devRef .tc main_v54) = Cert.ReferenceIdeal.Read.val_main_v64 (F := Ideal) (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) := by
  show StableHlo.after hostOps2 _ (Proc.devRef .tc main_v54) = _
  after_results_simp
  rw [W4_v41 m ρ c, W4_v1 m ρ c, W4_v3 m ρ c, W4_v11 m ρ c]
  rfl

theorem W5_v55 : W5 m ρ c (Proc.devRef .tc main_v55) = shapeCast S1x64 (m ((c : Thread nD τ).loc main_arg10)) shapeCasts_S64_S1x64 := by
  show StableHlo.after hostOps2 _ (Proc.devRef .tc main_v55) = _
  after_results_simp
  rw [W4_arg10 m ρ c]
  rfl

theorem W5_v41 : W5 m ρ c (Proc.devRef .tc main_v41) = Cert.ReferenceIdeal.Read.val_main_v51 (F := Ideal) (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) :=
  calc W5 m ρ c (Proc.devRef .tc main_v41)
    _ = W4 m ρ c (Proc.devRef .tc main_v41) := by skip_ops hostOps2
    _ = Cert.ReferenceIdeal.Read.val_main_v51 (F := Ideal) (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) := W4_v41 m ρ c

theorem W5_arg9 : W5 m ρ c (Proc.devRef .tc main_arg9) = (m ((c : Thread nD τ).loc main_arg9)) :=
  calc W5 m ρ c (Proc.devRef .tc main_arg9)
    _ = W4 m ρ c (Proc.devRef .tc main_arg9) := by skip_ops hostOps2
    _ = W3 m ρ c (Proc.devRef .tc main_arg9) := W4_of_ne m ρ c main_arg9 (by decide)
    _ = W2 m ρ c (Proc.devRef .tc main_arg9) := by skip_ops hostOps1
    _ = W1 m ρ c (Proc.devRef .tc main_arg9) := W2_of_ne m ρ c main_arg9 (by decide)
    _ = W0 m ρ c (Proc.devRef .tc main_arg9) := by skip_ops hostOps0
    _ = (m ((c : Thread nD τ).loc main_arg9)) := rfl

theorem W5_arg11 : W5 m ρ c (Proc.devRef .tc main_arg11) = (m ((c : Thread nD τ).loc main_arg11)) :=
  calc W5 m ρ c (Proc.devRef .tc main_arg11)
    _ = W4 m ρ c (Proc.devRef .tc main_arg11) := by skip_ops hostOps2
    _ = W3 m ρ c (Proc.devRef .tc main_arg11) := W4_of_ne m ρ c main_arg11 (by decide)
    _ = W2 m ρ c (Proc.devRef .tc main_arg11) := by skip_ops hostOps1
    _ = W1 m ρ c (Proc.devRef .tc main_arg11) := W2_of_ne m ρ c main_arg11 (by decide)
    _ = W0 m ρ c (Proc.devRef .tc main_arg11) := by skip_ops hostOps0
    _ = (m ((c : Thread nD τ).loc main_arg11)) := rfl

/-! ## The third region, and the closing stretches -/

/-- Region 2's output is the reference's layer 3: the region is entered with the reference's neighbourhood means,
    its node features, and the launch weights and bias. -/
theorem W6_v56 : W6 m ρ c (Proc.devRef .tc main_v56) = Cert.ReferenceIdeal.Read.val_main_v71 (F := Ideal) (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) := by
  refine (W6_arr m ρ c 5).trans ((Cert.KernelIdeal.Dense.value2 (V5 m ρ) c).trans ?_)
  have e : (fun q : (⟨1, ![64]⟩ : Shape).Idx => W5 m ρ c (Proc.devRef .tc main_v55) (ix2 ⟨0, Nat.one_pos⟩ (q 0))) = (m ((c : Thread nD τ).loc main_arg10)) := by
    rw [W5_v55 m ρ c]
    exact bias_row2 _
  show Cert.LibDense.relu (n := 50000) (K := 128) (d := 64) (W5 m ρ c (Proc.devRef .tc main_v54)) (W5 m ρ c (Proc.devRef .tc main_v41))
    (W5 m ρ c (Proc.devRef .tc main_arg9)) (W5 m ρ c (Proc.devRef .tc main_arg11))
    (fun q : (⟨1, ![64]⟩ : Shape).Idx => W5 m ρ c (Proc.devRef .tc main_v55) (ix2 ⟨0, Nat.one_pos⟩ (q 0))) = _
  rw [e, W5_v54 m ρ c, W5_v41 m ρ c, W5_arg9 m ρ c, W5_arg11 m ρ c]
  exact (Cert.ReferenceIdeal.Layers.layer3 (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11))).symm

theorem W6_arg2 : W6 m ρ c (Proc.devRef .tc main_arg2) = (m ((c : Thread nD τ).loc main_arg2)) :=
  calc W6 m ρ c (Proc.devRef .tc main_arg2)
    _ = W5 m ρ c (Proc.devRef .tc main_arg2) := W6_of_ne m ρ c main_arg2 (by decide)
    _ = W4 m ρ c (Proc.devRef .tc main_arg2) := by skip_ops hostOps2
    _ = W3 m ρ c (Proc.devRef .tc main_arg2) := W4_of_ne m ρ c main_arg2 (by decide)
    _ = W2 m ρ c (Proc.devRef .tc main_arg2) := by skip_ops hostOps1
    _ = W1 m ρ c (Proc.devRef .tc main_arg2) := W2_of_ne m ρ c main_arg2 (by decide)
    _ = W0 m ρ c (Proc.devRef .tc main_arg2) := by skip_ops hostOps0
    _ = (m ((c : Thread nD τ).loc main_arg2)) := rfl

theorem W6_arg12 : W6 m ρ c (Proc.devRef .tc main_arg12) = (m ((c : Thread nD τ).loc main_arg12)) :=
  calc W6 m ρ c (Proc.devRef .tc main_arg12)
    _ = W5 m ρ c (Proc.devRef .tc main_arg12) := W6_of_ne m ρ c main_arg12 (by decide)
    _ = W4 m ρ c (Proc.devRef .tc main_arg12) := by skip_ops hostOps2
    _ = W3 m ρ c (Proc.devRef .tc main_arg12) := W4_of_ne m ρ c main_arg12 (by decide)
    _ = W2 m ρ c (Proc.devRef .tc main_arg12) := by skip_ops hostOps1
    _ = W1 m ρ c (Proc.devRef .tc main_arg12) := W2_of_ne m ρ c main_arg12 (by decide)
    _ = W0 m ρ c (Proc.devRef .tc main_arg12) := by skip_ops hostOps0
    _ = (m ((c : Thread nD τ).loc main_arg12)) := rfl

theorem W6_arg13 : W6 m ρ c (Proc.devRef .tc main_arg13) = (m ((c : Thread nD τ).loc main_arg13)) :=
  calc W6 m ρ c (Proc.devRef .tc main_arg13)
    _ = W5 m ρ c (Proc.devRef .tc main_arg13) := W6_of_ne m ρ c main_arg13 (by decide)
    _ = W4 m ρ c (Proc.devRef .tc main_arg13) := by skip_ops hostOps2
    _ = W3 m ρ c (Proc.devRef .tc main_arg13) := W4_of_ne m ρ c main_arg13 (by decide)
    _ = W2 m ρ c (Proc.devRef .tc main_arg13) := by skip_ops hostOps1
    _ = W1 m ρ c (Proc.devRef .tc main_arg13) := W2_of_ne m ρ c main_arg13 (by decide)
    _ = W0 m ρ c (Proc.devRef .tc main_arg13) := by skip_ops hostOps0
    _ = (m ((c : Thread nD τ).loc main_arg13)) := rfl

/-- The result buffer at the last boundary is the reference's result stage of the launch arrays. -/
theorem W8_v73 : W8 m ρ c (Proc.devRef .tc main_v73) = Cert.ReferenceIdeal.Read.val_main_v88 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) := by
  show StableHlo.after hostOps3_1 (StableHlo.after hostOps3 (W6 m ρ c)) (Proc.devRef .tc main_v73) = _
  after_results_simp
  rw [W6_v56 m ρ c, W6_arg2 m ρ c, W6_arg12 m ρ c, W6_arg13 m ρ c]
  rfl

end Cert.KernelIdeal.Stages

end
-- ==== Proof.lean ====
/-
  The certificate: the kernel — three dense-layer regions among the host's gathers and scatter-adds — and its jnp
  reference compute the same log-probabilities on the extended reals.

  The two programs differ only inside the three layers. There the kernel's region computes, ten blocks of 5000 rows at a
  time, `max ((mean · Wl + x · Wr) + b, 0)` with the operands passed through a narrower float format (the identity on
  the extended reals) and each product taken into a zero accumulator, and the reference computes
  `max ((mean · Wl + b) + x · Wr, 0)` with two dot_generals: the same sum regrouped. Everything around the layers — the
  in-degrees, the neighbourhood means, the graph means, the linear head, the log-softmax — is the same chain of host
  operations applied to equal operands, and is carried along unopened.

  The three frames are the generated ones (the reference's is its generated run with the result dropped); no rewrite
  was applied when the kernel was idealized, so there is nothing to preserve.
-/
import proofs.«133121_j40613210751535_1_alg».proof.Defs
import proofs.«133121_j40613210751535_1_alg».proof.Proof.Gen.Kernel
import proofs.«133121_j40613210751535_1_alg».proof.Proof.Gen.Kernel.Frame
import proofs.«133121_j40613210751535_1_alg».proof.Proof.Gen.KernelIdeal
import proofs.«133121_j40613210751535_1_alg».proof.Proof.Gen.KernelIdeal.Frame
import proofs.«133121_j40613210751535_1_alg».proof.Proof.Gen.ReferenceIdeal
import proofs.«133121_j40613210751535_1_alg».proof.Proof.Gen.ReferenceIdeal.Run
import proofs.«133121_j40613210751535_1_alg».proof.Proof.Gen.ReferenceIdeal.Read
import proofs.«133121_j40613210751535_1_alg».proof.Proof.Gen.Pre_finite_inputs
import proofs.«133121_j40613210751535_1_alg».proof.Proof.KRun
import proofs.«133121_j40613210751535_1_alg».proof.Proof.Stages

noncomputable section

namespace Cert.Proof

open Idealize.ShloMosaic Idealize.SL.Sem

theorem frame_k : Cert.frame_Kernel := fun m ρ _ => Cert.Kernel.Gen.frame m ρ

theorem frame_ki : Cert.frame_KernelIdeal := fun m ρ _ => Cert.KernelIdeal.Gen.frame m ρ

theorem frame_ri : Cert.frame_ReferenceIdeal := fun m ρ _ =>
  (θ_run Cert.ReferenceIdeal.defs _ _).mono (fun _ h c => (h c).2) (Cert.ReferenceIdeal.Value.run (F := Ideal) m ρ)

/-- Both runs end with the result at the reference's result stage of the (agreeing) launch arrays. -/
theorem algebraic : Cert.algebraic_KernelIdeal_ReferenceIdeal := by
  intro m ρ m' ρ' _ hagree
  refine ⟨fun c => Cert.ReferenceIdeal.Read.val_main_v88 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)), ?_, ?_⟩
  · exact (θ_run Cert.KernelIdeal.defs _ _).mono
      (fun r h c => ⟨(h c).1.trans (Cert.KernelIdeal.Stages.W8_v73 m ρ c), (h c).2⟩) (Cert.KernelIdeal.Gen.run_result m ρ)
  · refine (θ_run Cert.ReferenceIdeal.defs _ _).mono (fun r h c => ⟨?_, (h c).2⟩)
      (Cert.ReferenceIdeal.Value.run (F := Ideal) m' ρ')
    obtain ⟨h0, h1, h2, h3, h4, h5, h6, h7, h8, h9, h10, h11, h12, h13⟩ := hagree c
    rw [(h c).1, Cert.ReferenceIdeal.Read.val_main_v88_eq, h0, h1, h2, h3, h4, h5, h6, h7, h8, h9, h10, h11, h12, h13]

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
